-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S50000x300 : Shape := ⟨2, ![50000, 300]⟩
abbrev S9x300 : Shape := ⟨2, ![9, 300]⟩
abbrev S9 : Shape := ⟨1, ![9]⟩
abbrev S300x10 : Shape := ⟨2, ![300, 10]⟩
abbrev S10 : Shape := ⟨1, ![10]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S9x300 : S_.BroadcastsInDim S9x300 (![] : Fin 0 → Fin S9x300.rank)
  reducesTo_S9x300_S_d0_1 : S9x300.ReducesTo [0, 1] S_
  bcast_S_S9 : S_.BroadcastsInDim S9 (![] : Fin 0 → Fin S9.rank)
  reducesTo_S9_S_d0 : S9.ReducesTo [0] S_
  bcast_S_S300x10 : S_.BroadcastsInDim S300x10 (![] : Fin 0 → Fin S300x10.rank)
  reducesTo_S300x10_S_d0_1 : S300x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S300x10 1) : IVec S_ 1 :=
  let main_c_5 : IVec S_ 1 := constantI S_ 1 1#1
  let main_v17 : IVec S_ 1 := (fun x v => Host.reduce IntOp.andi x v reducesTo_S300x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : IVec S128x2048 32) (main_arg1 : FVec F S50000x300 .f32) (main_arg2 : FVec F S9x300 .f32) (main_arg3 : FVec F S9 .f32) (main_arg4 : FVec F S300x10 .f32) (main_arg5 : FVec F S10 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S9x300 .f32 := Host.absf main_arg2
  let main_cst_0 : FVec F S_ .f32 := constant S_ .f32 0x7F800000#32
  let main_v5 : FVec F S9x300 .f32 := broadcastInDim S9x300 ![] bcast_S_S9x300 main_cst_0
  let main_v6 : IVec S9x300 1 := cmpf .olt main_v4 main_v5
  let main_c_1 : IVec S_ 1 := constantI S_ 1 1#1
  let main_v7 : IVec S_ 1 := (fun x v => Host.reduce IntOp.andi x v reducesTo_S9x300_S_d0_1 h_S_) main_v6 main_c_1
  let main_v8 : IVec S_ 1 := andi main_v3 main_v7
  let main_v9 : FVec F S9 .f32 := Host.absf main_arg3
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S300x10 .f32 := Host.absf main_arg4
  let main_cst_4 : FVec F S_ .f32 := constant S_ .f32 0x7F800000#32
  let main_v15 : FVec F S300x10 .f32 := broadcastInDim S300x10 ![] bcast_S_S300x10 main_cst_4
  let main_v16 : IVec S300x10 1 := cmpf .olt main_v14 main_v15
  fn_part1 (F := F) main_arg5 main_v13 main_v16
-- ==== Kernel.lean ====
abbrev S128x2048 : Shape := ⟨2, ![128, 2048]⟩
abbrev S50000x300 : Shape := ⟨2, ![50000, 300]⟩
abbrev S9x300 : Shape := ⟨2, ![9, 300]⟩
abbrev S9 : Shape := ⟨1, ![9]⟩
abbrev S300x10 : Shape := ⟨2, ![300, 10]⟩
abbrev S10 : Shape := ⟨1, ![10]⟩
abbrev S2048x128 : Shape := ⟨2, ![2048, 128]⟩
abbrev S_ : Shape := ⟨0, ![]⟩
abbrev S2048x128x1 : Shape := ⟨3, ![2048, 128, 1]⟩
abbrev S2048x128x300 : Shape := ⟨3, ![2048, 128, 300]⟩
abbrev S1x1x9 : Shape := ⟨3, ![1, 1, 9]⟩
abbrev S2048x300 : Shape := ⟨2, ![2048, 300]⟩
abbrev S32x128x300 : Shape := ⟨3, ![32, 128, 300]⟩
abbrev S32x300 : Shape := ⟨2, ![32, 300]⟩
abbrev S4096x300 : Shape := ⟨2, ![4096, 300]⟩
abbrev S4096x9 : Shape := ⟨2, ![4096, 9]⟩
abbrev S32x128x9 : Shape := ⟨3, ![32, 128, 9]⟩
abbrev S32x128 : Shape := ⟨2, ![32, 128]⟩
abbrev S32x128x1 : Shape := ⟨3, ![32, 128, 1]⟩
abbrev S300x9 : Shape := ⟨2, ![300, 9]⟩
abbrev S2048x9 : Shape := ⟨2, ![2048, 9]⟩
abbrev S1x9 : Shape := ⟨2, ![1, 9]⟩
abbrev S2048 : Shape := ⟨1, ![2048]⟩
abbrev S2048x1 : Shape := ⟨2, ![2048, 1]⟩
abbrev S2048x10 : Shape := ⟨2, ![2048, 10]⟩
abbrev S1x10 : Shape := ⟨2, ![1, 10]⟩
abbrev S2048x4 : Shape := ⟨2, ![2048, 4]⟩
abbrev S2048x5 : Shape := ⟨2, ![2048, 5]⟩

abbrev nBuf : Space → Nat
  | .hbm => 116
  | .vmem => 8
  | .smem => 0
  | _ => 0

abbrev bufTy : (tb : Table) → Fin (tcTables nBuf tb) → BufTy
  | .hbm, ⟨0, _⟩ => ⟨S128x2048, .i32⟩
  | .hbm, ⟨1, _⟩ => ⟨S50000x300, .f32⟩
  | .hbm, ⟨2, _⟩ => ⟨S9x300, .f32⟩
  | .hbm, ⟨3, _⟩ => ⟨S9, .f32⟩
  | .hbm, ⟨4, _⟩ => ⟨S300x10, .f32⟩
  | .hbm, ⟨5, _⟩ => ⟨S10, .f32⟩
  | .hbm, ⟨6, _⟩ => ⟨S2048x128, .i32⟩
  | .hbm, ⟨7, _⟩ => ⟨S_, .i32⟩
  | .hbm, ⟨8, _⟩ => ⟨S2048x128, .i32⟩
  | .hbm, ⟨9, _⟩ => ⟨S2048x128, .i1⟩
  | .hbm, ⟨10, _⟩ => ⟨S_, .i32⟩
  | .hbm, ⟨11, _⟩ => ⟨S2048x128, .i32⟩
  | .hbm, ⟨12, _⟩ => ⟨S2048x128, .i32⟩
  | .hbm, ⟨13, _⟩ => ⟨S2048x128, .i32⟩
  | .hbm, ⟨14, _⟩ => ⟨S2048x128x1, .i32⟩
  | .hbm, ⟨15, _⟩ => ⟨S2048x128x300, .f32⟩
  | .hbm, ⟨16, _⟩ => ⟨S1x1x9, .f32⟩
  | .hbm, ⟨17, _⟩ => ⟨S2048x300, .f32⟩
  | .hbm, ⟨18, _⟩ => ⟨S2048x300, .f32⟩
  | .hbm, ⟨19, _⟩ => ⟨S300x9, .f32⟩
  | .hbm, ⟨20, _⟩ => ⟨S2048x9, .f32⟩
  | .hbm, ⟨21, _⟩ => ⟨S1x9, .f32⟩
  | .hbm, ⟨22, _⟩ => ⟨S2048x9, .f32⟩
  | .hbm, ⟨23, _⟩ => ⟨S2048x9, .f32⟩
  | .hbm, ⟨24, _⟩ => ⟨S_, .f32⟩
  | .hbm, ⟨25, _⟩ => ⟨S2048x9, .f32⟩
  | .hbm, ⟨26, _⟩ => ⟨S2048x9, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S2048x1, .f32⟩
  | .hbm, ⟨33, _⟩ => ⟨S2048x9, .f32⟩
  | .hbm, ⟨34, _⟩ => ⟨S2048x9, .f32⟩
  | .hbm, ⟨35, _⟩ => ⟨S2048x9, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x9, .f32⟩
  | .hbm, ⟨40, _⟩ => ⟨S2048x9, .f32⟩
  | .hbm, ⟨41, _⟩ => ⟨S2048x10, .f32⟩
  | .hbm, ⟨42, _⟩ => ⟨S1x10, .f32⟩
  | .hbm, ⟨43, _⟩ => ⟨S2048x10, .f32⟩
  | .hbm, ⟨44, _⟩ => ⟨S2048x10, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048x1, .f32⟩
  | .hbm, ⟨51, _⟩ => ⟨S2048x10, .f32⟩
  | .hbm, ⟨52, _⟩ => ⟨S2048x10, .f32⟩
  | .hbm, ⟨53, _⟩ => ⟨S2048x10, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x10, .f32⟩
  | .hbm, ⟨58, _⟩ => ⟨S2048x10, .f32⟩
  | .hbm, ⟨59, _⟩ => ⟨S_, .f32⟩
  | .hbm, ⟨60, _⟩ => ⟨S2048x10, .f32⟩
  | .hbm, ⟨61, _⟩ => ⟨S2048x10, .i1⟩
  | .hbm, ⟨62, _⟩ => ⟨S_, .f32⟩
  | .hbm, ⟨63, _⟩ => ⟨S_, .f32⟩
  | .hbm, ⟨64, _⟩ => ⟨S2048x10, .f32⟩
  | .hbm, ⟨65, _⟩ => ⟨S2048x10, .f32⟩
  | .hbm, ⟨66, _⟩ => ⟨S_, .f32⟩
  | .hbm, ⟨67, _⟩ => ⟨S2048x10, .f32⟩
  | .hbm, ⟨68, _⟩ => ⟨S2048x10, .i1⟩
  | .hbm, ⟨69, _⟩ => ⟨S2048x10, .f32⟩
  | .hbm, ⟨70, _⟩ => ⟨S2048x10, .f32⟩
  | .hbm, ⟨71, _⟩ => ⟨S_, .f32⟩
  | .hbm, ⟨72, _⟩ => ⟨S_, .f32⟩
  | .hbm, ⟨73, _⟩ => ⟨S2048x10, .f32⟩
  | .hbm, ⟨74, _⟩ => ⟨S2048x10, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2048, .f32⟩
  | .hbm, ⟨82, _⟩ => ⟨S2048, .f32⟩
  | .hbm, ⟨83, _⟩ => ⟨S_, .f32⟩
  | .hbm, ⟨84, _⟩ => ⟨S2048, .f32⟩
  | .hbm, ⟨85, _⟩ => ⟨S2048, .i1⟩
  | .hbm, ⟨86, _⟩ => ⟨S_, .f32⟩
  | .hbm, ⟨87, _⟩ => ⟨S2048, .f32⟩
  | .hbm, ⟨88, _⟩ => ⟨S2048, .f32⟩
  | .hbm, ⟨89, _⟩ => ⟨S_, .f32⟩
  | .hbm, ⟨90, _⟩ => ⟨S2048, .f32⟩
  | .hbm, ⟨91, _⟩ => ⟨S2048, .f32⟩
  | .hbm, ⟨92, _⟩ => ⟨S_, .f32⟩
  | .hbm, ⟨93, _⟩ => ⟨S_, .f32⟩
  | .hbm, ⟨94, _⟩ => ⟨S2048, .f32⟩
  | .hbm, ⟨95, _⟩ => ⟨S2048, .f32⟩
  | .hbm, ⟨96, _⟩ => ⟨S2048x1, .f32⟩
  | .hbm, ⟨97, _⟩ => ⟨S_, .f32⟩
  | .hbm, ⟨98, _⟩ => ⟨S2048x1, .f32⟩
  | .hbm, ⟨99, _⟩ => ⟨S2048x1, .f32⟩
  | .hbm, ⟨100, _⟩ => ⟨S2048x9, .f32⟩
  | .hbm, ⟨101, _⟩ => ⟨S2048x9, .f32⟩
  | .hbm, ⟨102, _⟩ => ⟨S2048x4, .f32⟩
  | .hbm, ⟨103, _⟩ => ⟨S2048x5, .f32⟩
  | .hbm, ⟨104, _⟩ => ⟨S2048x10, .f32⟩
  | .hbm, ⟨105, _⟩ => ⟨S_, .f32⟩
  | .hbm, ⟨106, _⟩ => ⟨S10, .f32⟩
  | .hbm, ⟨107, _⟩ => ⟨S2048x10, .f32⟩
  | .hbm, ⟨108, _⟩ => ⟨S1x10, .f32⟩
  | .hbm, ⟨109, _⟩ => ⟨S2048x10, .f32⟩
  | .hbm, ⟨110, _⟩ => ⟨S2048x10, .f32⟩
  | .hbm, ⟨111, _⟩ => ⟨S_, .f32⟩
  | .hbm, ⟨112, _⟩ => ⟨S2048, .f32⟩
  | .hbm, ⟨113, _⟩ => ⟨S2048x1, .f32⟩
  | .hbm, ⟨114, _⟩ => ⟨S2048x10, .f32⟩
  | .hbm, ⟨115, _⟩ => ⟨S2048x10, .f32⟩
  | .local _ .vmem, ⟨0, _⟩ => ⟨S32x128x300, .f32⟩
  | .local _ .vmem, ⟨1, _⟩ => ⟨S32x128x300, .f32⟩
  | .local _ .vmem, ⟨2, _⟩ => ⟨S9x300, .f32⟩
  | .local _ .vmem, ⟨3, _⟩ => ⟨S1x1x9, .f32⟩
  | .local _ .vmem, ⟨4, _⟩ => ⟨S32x300, .f32⟩
  | .local _ .vmem, ⟨5, _⟩ => ⟨S32x300, .f32⟩
  | .local _ .vmem, ⟨6, _⟩ => ⟨S32x300, .f32⟩
  | .local _ .vmem, ⟨7, _⟩ => ⟨S32x300, .f32⟩
  | _, _ => ⟨S128x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_call2_v0 : Ref sig .tc := ⟨.hbm, 72, rfl⟩
abbrev main_call2_v1 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_call3_v0 : Ref sig .tc := ⟨.hbm, 93, rfl⟩
abbrev main_call3_v1 : Ref sig .tc := ⟨.hbm, 94, rfl⟩
abbrev main_v62 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x2048_S2048x128_1_0 : S128x2048.Transposes [1, 0] S2048x128
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  shapeCasts_S9_S1x1x9 : S9.ShapeCasts S1x1x9
  inb_S32x128x300_S32x128x300_0_0_0 : ∀ a, (![0, 0, 0] : Fin 3 → Nat) a + S32x128x300.size a ≤ S32x128x300.size a
  h_S32x128x300 : 0 < S32x128x300.numel
  shapeCasts_S32x128x300_S32x128x300 : S32x128x300.ShapeCasts S32x128x300
  shapeCasts_S32x128x300_S4096x300 : S32x128x300.ShapeCasts S4096x300
  bitsLt_bf16_f32 : FTy.bits .bf16 < FTy.bits .f32
  inb_S9x300_S9x300_0_0 : ∀ a, (![0, 0] : Fin 2 → Nat) a + S9x300.size a ≤ S9x300.size a
  h_S9x300 : 0 < S9x300.numel
  shapeCasts_S4096x9_S32x128x9 : S4096x9.ShapeCasts S32x128x9
  inb_S1x1x9_S1x1x9_0_0_0 : ∀ a, (![0, 0, 0] : Fin 3 → Nat) a + S1x1x9.size a ≤ S1x1x9.size a
  h_S1x1x9 : 0 < S1x1x9.numel
  shapeCasts_S1x1x9_S1x1x9 : S1x1x9.ShapeCasts S1x1x9
  broadcasts_S1x1x9_S32x128x9 : S1x1x9.Broadcasts S32x128x9
  reduces_S32x128x9_S32x128 : S32x128x9.Reduces [2] S32x128
  shapeCasts_S32x128_S32x128x1 : S32x128.ShapeCasts S32x128x1
  broadcasts_S32x128x1_S32x128x300 : S32x128x1.Broadcasts S32x128x300
  reduces_S32x128x300_S32x300 : S32x128x300.Reduces [1] S32x300
  inb_S32x300_S32x300_0_0 : ∀ a, (![0, 0] : Fin 2 → Nat) a + S32x300.size a ≤ S32x300.size a
  h_S32x300 : 0 < S32x300.numel
  transposes_S9x300_S300x9_1_0 : S9x300.Transposes [1, 0] S300x9
  bcast_S9_S1x9_1 : S9.BroadcastsInDim S1x9 (![1] : Fin 1 → Fin S1x9.rank)
  bcast_S1x9_S2048x9_0_1 : S1x9.BroadcastsInDim S2048x9 (![0, 1] : Fin 2 → Fin S2048x9.rank)
  bcast_S_S2048x9 : S_.BroadcastsInDim S2048x9 (![] : Fin 0 → Fin S2048x9.rank)
  reducesTo_S2048x9_S2048_d1 : S2048x9.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x9_0_1 : S2048x1.BroadcastsInDim S2048x9 (![0, 1] : Fin 2 → Fin S2048x9.rank)
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  reducesTo_S2048x10_S2048_d1 : S2048x10.ReducesTo [1] S2048
  bcast_S2048x1_S2048x10_0_1 : S2048x1.BroadcastsInDim S2048x10 (![0, 1] : Fin 2 → Fin S2048x10.rank)
  bcast_S_S2048x10 : S_.BroadcastsInDim S2048x10 (![] : Fin 0 → Fin S2048x10.rank)
  bcast_S_S2048x1 : S_.BroadcastsInDim S2048x1 (![] : Fin 0 → Fin S2048x1.rank)
  slices_S2048x9_S2048x4_0_0 : S2048x9.Slices ![0, 0] S2048x4
  slices_S2048x9_S2048x5_0_4 : S2048x9.Slices ![0, 4] S2048x5
  concatenates_S2048x4_S2048x1_S2048x5_S2048x10_d1 : Shape.Concatenates [S2048x4, S2048x1, S2048x5] S2048x10 1
  reducesTo_S2048x10_S10_d0 : S2048x10.ReducesTo [0] S10
  gather_S50000x300_S2048x128x1_S2048x128x300_2_0_n_n_0_2_1300_wf : GatherDims.WF S50000x300 S2048x128x1 S2048x128x300 [2] [0] [] [0] [] 2 ![1, 300]
  dot_S4096x300_S9x300_S4096x9_1_1_0_0_n_n_wf : DotDims.WF S4096x300 S9x300 S4096x9 [1] [1] [0] [0] [] []
  dot_S2048x300_S300x9_S2048x9_1_0_0_1_n_n_wf : DotDims.WF S2048x300 S300x9 S2048x9 [1] [0] [0] [1] [] []
  dot_S2048x300_S300x10_S2048x10_1_0_0_1_n_n_wf : DotDims.WF S2048x300 S300x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x300.size a ≤ S2048x128x300.size a
  hwx0_0 : ∀ i : grid0.Coords, EltTy.bits .f32 = 32 ∨ (Rect.block (s := S2048x128x300) S32x128x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x300.size a ≤ S9x300.size a
  hwx0_1 : ∀ i : grid0.Coords, EltTy.bits .f32 = 32 ∨ (Rect.block (s := S9x300) S9x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x9.size a ≤ S1x1x9.size a
  hwx0_2 : ∀ i : grid0.Coords, EltTy.bits .f32 = 32 ∨ (Rect.block (s := S1x1x9) S1x1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x300.size a ≤ S2048x300.size a
  hwx0_3 : ∀ i : grid0.Coords, EltTy.bits .f32 = 32 ∨ (Rect.block (s := S2048x300) S32x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x300.size a ≤ S2048x300.size a
  hwx0_4 : ∀ i : grid0.Coords, EltTy.bits .f32 = 32 ∨ (Rect.block (s := S2048x300) S32x300.size (cc0_transform_4 i) (hinb0_4 i)).WholeWords (EltTy.packing .f32)

variable [Facts₀]

def gather_S50000x300_S2048x128x1_S2048x128x300_2_0_n_n_0_2_1300 : GatherDims S50000x300 S2048x128x1 S2048x128x300 where
  offsetDims := [2]
  collapsedSliceDims := [0]
  operandBatchingDims := []
  startIndicesBatchingDims := []
  startIndexMap := [0]
  indexVectorDim := 2
  sliceSizes := ![1, 300]
  wf := gather_S50000x300_S2048x128x1_S2048x128x300_2_0_n_n_0_2_1300_wf
def dot_S4096x300_S9x300_S4096x9_1_1_0_0_n_n : DotDims S4096x300 S9x300 S4096x9 where
  lhsContracting := [1]
  rhsContracting := [1]
  lhsNonContracting := [0]
  rhsNonContracting := [0]
  lhsBatch := []
  rhsBatch := []
  wf := dot_S4096x300_S9x300_S4096x9_1_1_0_0_n_n_wf
def dot_S2048x300_S300x9_S2048x9_1_0_0_1_n_n : DotDims S2048x300 S300x9 S2048x9 where
  lhsContracting := [1]
  rhsContracting := [0]
  lhsNonContracting := [0]
  rhsNonContracting := [1]
  lhsBatch := []
  rhsBatch := []
  wf := dot_S2048x300_S300x9_S2048x9_1_0_0_1_n_n_wf
def dot_S2048x300_S300x10_S2048x10_1_0_0_1_n_n : DotDims S2048x300 S300x10 S2048x10 where
  lhsContracting := [1]
  rhsContracting := [0]
  lhsNonContracting := [0]
  rhsNonContracting := [1]
  lhsBatch := []
  rhsBatch := []
  wf := dot_S2048x300_S300x10_S2048x10_1_0_0_1_n_n_wf

abbrev win0_0 : Pipeline.Window sig grid0 :=
  Pipeline.Window.ofSpec (Memref.whole main_v7) S32x128x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S32x300.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S32x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x2048 : Shape := ⟨2, ![128, 2048]⟩
abbrev S50000x300 : Shape := ⟨2, ![50000, 300]⟩
abbrev S9x300 : Shape := ⟨2, ![9, 300]⟩
abbrev S9 : Shape := ⟨1, ![9]⟩
abbrev S300x10 : Shape := ⟨2, ![300, 10]⟩
abbrev S10 : Shape := ⟨1, ![10]⟩
abbrev S2048x128 : Shape := ⟨2, ![2048, 128]⟩
abbrev S_ : Shape := ⟨0, ![]⟩
abbrev S2048x128x1 : Shape := ⟨3, ![2048, 128, 1]⟩
abbrev S2048x128x300 : Shape := ⟨3, ![2048, 128, 300]⟩
abbrev S2048x128x9 : Shape := ⟨3, ![2048, 128, 9]⟩
abbrev S1x1x9 : Shape := ⟨3, ![1, 1, 9]⟩
abbrev S2048x300 : Shape := ⟨2, ![2048, 300]⟩
abbrev S300x9 : Shape := ⟨2, ![300, 9]⟩
abbrev S2048x9 : Shape := ⟨2, ![2048, 9]⟩
abbrev S1x9 : Shape := ⟨2, ![1, 9]⟩
abbrev S2048 : Shape := ⟨1, ![2048]⟩
abbrev S2048x1 : Shape := ⟨2, ![2048, 1]⟩
abbrev S2048x10 : Shape := ⟨2, ![2048, 10]⟩
abbrev S1x10 : Shape := ⟨2, ![1, 10]⟩
abbrev S2048x4 : Shape := ⟨2, ![2048, 4]⟩
abbrev S2048x5 : Shape := ⟨2, ![2048, 5]⟩

abbrev nBuf : Space → Nat
  | .hbm => 135
  | .vmem => 0
  | .smem => 0
  | _ => 0

abbrev hbmTy0_0 (i : Nat) : BufTy := match i % 128 with
  | 0 => ⟨S128x2048, .i32⟩
  | 1 => ⟨S50000x300, .f32⟩
  | 2 => ⟨S9x300, .f32⟩
  | 3 => ⟨S9, .f32⟩
  | 4 => ⟨S300x10, .f32⟩
  | 5 => ⟨S10, .f32⟩
  | 6 => ⟨S2048x128, .i32⟩
  | 7 => ⟨S_, .i32⟩
  | 8 => ⟨S2048x128, .i32⟩
  | 9 => ⟨S2048x128, .i1⟩
  | 10 => ⟨S_, .i32⟩
  | 11 => ⟨S2048x128, .i32⟩
  | 12 => ⟨S2048x128, .i32⟩
  | 13 => ⟨S2048x128, .i32⟩
  | 14 => ⟨S2048x128x1, .i32⟩
  | 15 => ⟨S2048x128x300, .f32⟩
  | 16 => ⟨S2048x128x9, .f32⟩
  | 17 => ⟨S1x1x9, .f32⟩
  | 18 => ⟨S2048x128x9, .f32⟩
  | 19 => ⟨S2048x128x9, .f32⟩
  | 20 => ⟨S_, .f32⟩
  | 21 => ⟨S2048x128x9, .f32⟩
  | 22 => ⟨S2048x128x9, .f32⟩
  | 23 => ⟨S_, .f32⟩
  | 24 => ⟨S2048x128, .f32⟩
  | 25 => ⟨S2048x128x1, .f32⟩
  | 26 => ⟨S2048x128x300, .f32⟩
  | 27 => ⟨S2048x128x300, .f32⟩
  | 28 => ⟨S_, .f32⟩
  | 29 => ⟨S2048x300, .f32⟩
  | 30 => ⟨S_, .f32⟩
  | 31 => ⟨S2048x300, .f32⟩
  | 32 => ⟨S2048x300, .f32⟩
  | 33 => ⟨S300x9, .f32⟩
  | 34 => ⟨S2048x9, .f32⟩
  | 35 => ⟨S1x9, .f32⟩
  | 36 => ⟨S2048x9, .f32⟩
  | 37 => ⟨S2048x9, .f32⟩
  | 38 => ⟨S_, .f32⟩
  | 39 => ⟨S2048x9, .f32⟩
  | 40 => ⟨S2048x9, .f32⟩
  | 41 => ⟨S_, .f32⟩
  | 42 => ⟨S2048, .f32⟩
  | 43 => ⟨S_, .f32⟩
  | 44 => ⟨S2048, .f32⟩
  | 45 => ⟨S2048, .f32⟩
  | 46 => ⟨S2048x1, .f32⟩
  | 47 => ⟨S2048x9, .f32⟩
  | 48 => ⟨S2048x9, .f32⟩
  | 49 => ⟨S2048x9, .f32⟩
  | 50 => ⟨S_, .f32⟩
  | 51 => ⟨S2048, .f32⟩
  | 52 => ⟨S2048x1, .f32⟩
  | 53 => ⟨S2048x9, .f32⟩
  | 54 => ⟨S2048x9, .f32⟩
  | 55 => ⟨S_, .f32⟩
  | 56 => ⟨S2048x300, .f32⟩
  | 57 => ⟨S_, .f32⟩
  | 58 => ⟨S2048x300, .f32⟩
  | 59 => ⟨S2048x300, .f32⟩
  | 60 => ⟨S2048x10, .f32⟩
  | 61 => ⟨S1x10, .f32⟩
  | 62 => ⟨S2048x10, .f32⟩
  | 63 => ⟨S2048x10, .f32⟩
  | 64 => ⟨S_, .f32⟩
  | 65 => ⟨S2048, .f32⟩
  | 66 => ⟨S_, .f32⟩
  | 67 => ⟨S2048, .f32⟩
  | 68 => ⟨S2048, .f32⟩
  | 69 => ⟨S2048x1, .f32⟩
  | 70 => ⟨S2048x10, .f32⟩
  | 71 => ⟨S2048x10, .f32⟩
  | 72 => ⟨S2048x10, .f32⟩
  | 73 => ⟨S_, .f32⟩
  | 74 => ⟨S2048, .f32⟩
  | 75 => ⟨S2048x1, .f32⟩
  | 76 => ⟨S2048x10, .f32⟩
  | 77 => ⟨S2048x10, .f32⟩
  | 78 => ⟨S_, .f32⟩
  | 79 => ⟨S2048x10, .f32⟩
  | 80 => ⟨S2048x10, .i1⟩
  | 81 => ⟨S_, .f32⟩
  | 82 => ⟨S_, .f32⟩
  | 83 => ⟨S2048x10, .f32⟩
  | 84 => ⟨S2048x10, .f32⟩
  | 85 => ⟨S_, .f32⟩
  | 86 => ⟨S2048x10, .f32⟩
  | 87 => ⟨S2048x10, .i1⟩
  | 88 => ⟨S2048x10, .f32⟩
  | 89 => ⟨S2048x10, .f32⟩
  | 90 => ⟨S_, .f32⟩
  | 91 => ⟨S_, .f32⟩
  | 92 => ⟨S2048x10, .f32⟩
  | 93 => ⟨S2048x10, .f32⟩
  | 94 => ⟨S_, .f32⟩
  | 95 => ⟨S2048, .f32⟩
  | 96 => ⟨S2048, .f32⟩
  | 97 => ⟨S_, .f32⟩
  | 98 => ⟨S_, .f32⟩
  | 99 => ⟨S_, .f32⟩
  | 100 => ⟨S2048, .f32⟩
  | 101 => ⟨S2048, .f32⟩
  | 102 => ⟨S_, .f32⟩
  | 103 => ⟨S2048, .f32⟩
  | 104 => ⟨S2048, .i1⟩
  | 105 => ⟨S_, .f32⟩
  | 106 => ⟨S2048, .f32⟩
  | 107 => ⟨S2048, .f32⟩
  | 108 => ⟨S_, .f32⟩
  | 109 => ⟨S2048, .f32⟩
  | 110 => ⟨S2048, .f32⟩
  | 111 => ⟨S_, .f32⟩
  | 112 => ⟨S_, .f32⟩
  | 113 => ⟨S2048, .f32⟩
  | 114 => ⟨S2048, .f32⟩
  | 115 => ⟨S2048x1, .f32⟩
  | 116 => ⟨S_, .f32⟩
  | 117 => ⟨S2048x1, .f32⟩
  | 118 => ⟨S2048x1, .f32⟩
  | 119 => ⟨S2048x9, .f32⟩
  | 120 => ⟨S2048x9, .f32⟩
  | 121 => ⟨S2048x4, .f32⟩
  | 122 => ⟨S2048x5, .f32⟩
  | 123 => ⟨S2048x10, .f32⟩
  | 124 => ⟨S_, .f32⟩
  | 125 => ⟨S10, .f32⟩
  | 126 => ⟨S2048x10, .f32⟩
  | 127 => ⟨S1x10, .f32⟩
  | _ => ⟨S128x2048, .i32⟩

abbrev hbmTy0_1 (i : Nat) : BufTy := match i % 128 with
  | 0 => ⟨S2048x10, .f32⟩
  | 1 => ⟨S2048x10, .f32⟩
  | 2 => ⟨S_, .f32⟩
  | 3 => ⟨S2048, .f32⟩
  | 4 => ⟨S2048x1, .f32⟩
  | 5 => ⟨S2048x10, .f32⟩
  | 6 => ⟨S2048x10, .f32⟩
  | _ => ⟨S128x2048, .i32⟩

abbrev hbmTy (i : Nat) : BufTy := match i / 128 with
  | 0 => hbmTy0_0 i
  | 1 => hbmTy0_1 i
  | _ => ⟨S128x2048, .i32⟩

abbrev bufTy : (tb : Table) → Fin (tcTables nBuf tb) → BufTy
  | .hbm, ⟨i, _⟩ => hbmTy i
  | _, _ => ⟨S128x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_cst : Ref sig .tc := ⟨.hbm, 38, rfl⟩
abbrev main_call1_v0 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_cst_20 : Ref sig .tc := ⟨.hbm, 111, rfl⟩
abbrev main_call4_v0 : Ref sig .tc := ⟨.hbm, 112, rfl⟩
abbrev main_call4_v1 : Ref sig .tc := ⟨.hbm, 113, rfl⟩
abbrev main_v75 : Ref sig .tc := ⟨.hbm, 114, rfl⟩
abbrev main_v76 : Ref sig .tc := ⟨.hbm, 115, rfl⟩
abbrev main_cst_21 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_22 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩

abbrev nD : Nat := 1
abbrev τ : Topo := Topo.v7x

variable {F : FTy → Type} [FloatOps F]

class Facts₀ : Prop where
  transposes_S128x2048_S2048x128_1_0 : S128x2048.Transposes [1, 0] S2048x128
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  bcast_S9_S1x1x9_2 : S9.BroadcastsInDim S1x1x9 (![2] : Fin 1 → Fin S1x1x9.rank)
  bcast_S1x1x9_S2048x128x9_0_1_2 : S1x1x9.BroadcastsInDim S2048x128x9 (![0, 1, 2] : Fin 3 → Fin S2048x128x9.rank)
  bcast_S_S2048x128x9 : S_.BroadcastsInDim S2048x128x9 (![] : Fin 0 → Fin S2048x128x9.rank)
  reducesTo_S2048x128x9_S2048x128_d2 : S2048x128x9.ReducesTo [2] S2048x128
  h_S_ : 0 < S_.numel
  bcast_S2048x128x1_S2048x128x300_0_1_2 : S2048x128x1.BroadcastsInDim S2048x128x300 (![0, 1, 2] : Fin 3 → Fin S2048x128x300.rank)
  reducesTo_S2048x128x300_S2048x300_d1 : S2048x128x300.ReducesTo [1] S2048x300
  bcast_S_S2048x300 : S_.BroadcastsInDim S2048x300 (![] : Fin 0 → Fin S2048x300.rank)
  transposes_S9x300_S300x9_1_0 : S9x300.Transposes [1, 0] S300x9
  bcast_S9_S1x9_1 : S9.BroadcastsInDim S1x9 (![1] : Fin 1 → Fin S1x9.rank)
  bcast_S1x9_S2048x9_0_1 : S1x9.BroadcastsInDim S2048x9 (![0, 1] : Fin 2 → Fin S2048x9.rank)
  bcast_S_S2048x9 : S_.BroadcastsInDim S2048x9 (![] : Fin 0 → Fin S2048x9.rank)
  reducesTo_S2048x9_S2048_d1 : S2048x9.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x9_0_1 : S2048x1.BroadcastsInDim S2048x9 (![0, 1] : Fin 2 → Fin S2048x9.rank)
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  reducesTo_S2048x10_S2048_d1 : S2048x10.ReducesTo [1] S2048
  bcast_S2048x1_S2048x10_0_1 : S2048x1.BroadcastsInDim S2048x10 (![0, 1] : Fin 2 → Fin S2048x10.rank)
  bcast_S_S2048x10 : S_.BroadcastsInDim S2048x10 (![] : Fin 0 → Fin S2048x10.rank)
  bcast_S_S2048x1 : S_.BroadcastsInDim S2048x1 (![] : Fin 0 → Fin S2048x1.rank)
  slices_S2048x9_S2048x4_0_0 : S2048x9.Slices ![0, 0] S2048x4
  slices_S2048x9_S2048x5_0_4 : S2048x9.Slices ![0, 4] S2048x5
  concatenates_S2048x4_S2048x1_S2048x5_S2048x10_d1 : Shape.Concatenates [S2048x4, S2048x1, S2048x5] S2048x10 1
  reducesTo_S2048x10_S10_d0 : S2048x10.ReducesTo [0] S10
  gather_S50000x300_S2048x128x1_S2048x128x300_2_0_n_n_0_2_1300_wf : GatherDims.WF S50000x300 S2048x128x1 S2048x128x300 [2] [0] [] [0] [] 2 ![1, 300]
  dot_S2048x128x300_S9x300_S2048x128x9_2_1_01_0_n_n_wf : DotDims.WF S2048x128x300 S9x300 S2048x128x9 [2] [1] [0, 1] [0] [] []
  dot_S2048x300_S300x9_S2048x9_1_0_0_1_n_n_wf : DotDims.WF S2048x300 S300x9 S2048x9 [1] [0] [0] [1] [] []
  dot_S2048x300_S300x10_S2048x10_1_0_0_1_n_n_wf : DotDims.WF S2048x300 S300x10 S2048x10 [1] [0] [0] [1] [] []

variable [Facts₀]

def gather_S50000x300_S2048x128x1_S2048x128x300_2_0_n_n_0_2_1300 : GatherDims S50000x300 S2048x128x1 S2048x128x300 where
  offsetDims := [2]
  collapsedSliceDims := [0]
  operandBatchingDims := []
  startIndicesBatchingDims := []
  startIndexMap := [0]
  indexVectorDim := 2
  sliceSizes := ![1, 300]
  wf := gather_S50000x300_S2048x128x1_S2048x128x300_2_0_n_n_0_2_1300_wf
def dot_S2048x128x300_S9x300_S2048x128x9_2_1_01_0_n_n : DotDims S2048x128x300 S9x300 S2048x128x9 where
  lhsContracting := [2]
  rhsContracting := [1]
  lhsNonContracting := [0, 1]
  rhsNonContracting := [0]
  lhsBatch := []
  rhsBatch := []
  wf := dot_S2048x128x300_S9x300_S2048x128x9_2_1_01_0_n_n_wf
def dot_S2048x300_S300x9_S2048x9_1_0_0_1_n_n : DotDims S2048x300 S300x9 S2048x9 where
  lhsContracting := [1]
  rhsContracting := [0]
  lhsNonContracting := [0]
  rhsNonContracting := [1]
  lhsBatch := []
  rhsBatch := []
  wf := dot_S2048x300_S300x9_S2048x9_1_0_0_1_n_n_wf
def dot_S2048x300_S300x10_S2048x10_1_0_0_1_n_n : DotDims S2048x300 S300x10 S2048x10 where
  lhsContracting := [1]
  rhsContracting := [0]
  lhsNonContracting := [0]
  rhsNonContracting := [1]
  lhsBatch := []
  rhsBatch := []
  wf := dot_S2048x300_S300x10_S2048x10_1_0_0_1_n_n_wf

class Facts : Prop extends Facts₀ where

variable [Facts]
-- ==== Proof.KMain.lean ====
/-
  @main of this program is: eleven host operations (the token ids transposed, a negative id wrapped by adding the
  table's 50000 rows, the embedding rows gathered, the bias reshaped to [1,1,9]), ONE region — the kernel on a grid of 64
  points, each reducing a block of 32 batch rows —, and then 97 host operations in nine stretches (two small matrix
  products, two softmaxes, the normalised entropy and its threshold, the concatenation and the two normalisations).
  Here: the buffers' contents when the region is entered (`V0`, `V`), the nine later stretches as one list
  (`tailOps`), that no host operation allocates a buffer, that @main reduces to the region continued by the later
  stretches (`hmain`), and that the later stretches touch only unscoped TensorCore buffers and allocate nothing.
-/
import proofs.«120177_j61581241090537_2_alg».proof.Proof.Gen.Kernel.Launch
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The 97 host operations after the region, stretch by stretch, in program order. -/
abbrev tailOps : List (List (HloOp τ sig (Elt F))) :=
  [hostOps1, hostOps1_1, hostOps1_2, hostOps1_3, hostOps1_4, hostOps1_5, hostOps1_6, hostOps1_7, hostOps1_8]

/-- Core `c`'s TensorCore buffer contents when the region is entered: the launch contents after the eleven host
    operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates: each writes a buffer the program already has. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the earlier host operations, the region, the later ones: holding the buffers at the launch contents it
    reduces to the region CONTINUED BY the later stretches, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch only the pipeline's arrays and the buffers that bypass the region: with nothing
    prefetched, every unscoped TensorCore buffer is one or the other. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

end Cert.Kernel.Fr

end
-- ==== Proof.KKeeps.lean ====
/-
  Which buffers the host operations leave alone. The host operations before the region write the eleven fresh
  buffers of their own results, so the six argument arrays are, when the region is entered, as launched
  (`V_arg`). The 97 host operations after the region write 97 other fresh buffers: none writes an argument,
  the gathered embeddings, the reshaped bias, or either of the kernel's two result arrays (`tail_flat_keeps`) — in
  particular none writes an array a window of the pipeline stages (`tail_keeps`), and a kept buffer that no window
  stages ends, after them, as the region found it (`W_rest`).
-/
import proofs.«120177_j61581241090537_2_alg».proof.Proof.KMain

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The buffers no operation after the region writes: the arguments, the gathered embeddings, the reshaped bias and the
    kernel's two results. -/
abbrev kept : List (Ref sig .tc) :=
  [main_arg0, main_arg1, main_arg2, main_arg3, main_arg4, main_arg5, main_v7, main_v8, main_v9_0, main_v9_1]
/-- The argument arrays. -/
abbrev keptArgs : List (Ref sig .tc) := [main_arg0, main_arg1, main_arg2, main_arg3, main_arg4, main_arg5]

theorem kept_ne {L : List (Ref sig .tc)} (b : Ref sig .tc) (hb : b ∈ L) {y : Ref sig .tc} (hy : y ∉ L) : b ≠ y :=
  fun e => hy (e ▸ hb)

/-- Every array a window stages is a kept buffer. -/
theorem arr_kept : ∀ w, Pipeline.arrRef spec0 w ∈ kept := by decide

theorem hostOps0_keeps (b : Ref sig .tc) (hb : b ∈ keptArgs) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_keeps (b : Ref sig .tc) (hb : b ∈ kept) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_1_keeps (b : Ref sig .tc) (hb : b ∈ kept) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_2_keeps (b : Ref sig .tc) (hb : b ∈ kept) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_3_keeps (b : Ref sig .tc) (hb : b ∈ kept) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_4_keeps (b : Ref sig .tc) (hb : b ∈ kept) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_5_keeps (b : Ref sig .tc) (hb : b ∈ kept) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_6_keeps (b : Ref sig .tc) (hb : b ∈ kept) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_7_keeps (b : Ref sig .tc) (hb : b ∈ kept) :
    (hostOps1_7 : List (HloOp τ sig (Elt F))).Forall fun op => Proc.devRef .tc b ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_8_keeps (b : Ref sig .tc) (hb : b ∈ kept) :
    (hostOps1_8 : List (HloOp τ sig (Elt F))).Forall fun op => Proc.devRef .tc b ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))

/-- No operation after the region writes a kept buffer, stretch by stretch. -/
theorem tail_keeps_of (b : Ref sig .tc) (hb : b ∈ kept) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl | rfl | rfl | rfl | rfl | rfl | rfl
  · exact (List.forall_iff_forall_mem.mp (hostOps1_keeps b hb)) op hop
  · exact (List.forall_iff_forall_mem.mp (hostOps1_1_keeps b hb)) op hop
  · exact (List.forall_iff_forall_mem.mp (hostOps1_2_keeps b hb)) op hop
  · exact (List.forall_iff_forall_mem.mp (hostOps1_3_keeps b hb)) op hop
  · exact (List.forall_iff_forall_mem.mp (hostOps1_4_keeps b hb)) op hop
  · exact (List.forall_iff_forall_mem.mp (hostOps1_5_keeps b hb)) op hop
  · exact (List.forall_iff_forall_mem.mp (hostOps1_6_keeps b hb)) op hop
  · exact (List.forall_iff_forall_mem.mp (hostOps1_7_keeps b hb)) op hop
  · exact (List.forall_iff_forall_mem.mp (hostOps1_8_keeps b hb)) op hop

/-- The operations after the region write no array of the pipeline. -/
theorem tail_keeps : ∀ ops ∈ (tailOps : List (List (HloOp τ sig (Elt F)))), ∀ op ∈ ops,
    ∀ w, Proc.devRef .tc (Pipeline.arrRef spec0 w) ∉ op.writes :=
  fun ops hops op hop w => tail_keeps_of _ (arr_kept w) ops hops op hop

/-- The same over the nine stretches joined. -/
theorem tail_flat_keeps (b : Ref sig .tc) (hb : b ∈ kept) :
    ∀ op ∈ (tailOps : List (List (HloOp τ sig (Elt F)))).flatten, Proc.devRef .tc b ∉ op.writes := by
  intro op hop
  obtain ⟨ops, hops, hop'⟩ := List.mem_flatten.mp hop
  exact tail_keeps_of b hb ops hops op hop'

/-- An argument array is, when the region is entered, as launched. -/
theorem V_arg (c : Dev nD) (b : Ref sig .tc) (hb : b ∈ keptArgs) : V m c b = m ((c : Thread nD τ).loc b) :=
  StableHlo.after_of_forall_not_mem (b := Proc.devRef .tc b) _ _ (by
    intro op hop
    simp only [List.flatten_cons, List.flatten_nil, List.append_nil] at hop
    exact (List.forall_iff_forall_mem.mp (hostOps0_keeps b hb)) op hop)

/-- A kept buffer that no window stages is, after the operations that follow the region, as the region found it. -/
theorem W_rest (dats : (p : Fin 1) → (c : Dev nD) → Dat τ (Elt F) Unit ℕ (UR sig nD τ) ℕ (cfgs p) c) (c : Dev nD)
    (b : Ref sig .tc) (hb : b ∈ kept) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (tail_flat_keeps b hb),
    Pipeline.withArrays_of_ne _ c (V0 m c) _ b hne]

/-- One of the pipeline's arrays is, after the operations that follow the region, what the region left in it. -/
theorem W_arr (dats : (p : Fin 1) → (c : Dev nD) → Dat τ (Elt F) Unit ℕ (UR sig nD τ) ℕ (cfgs p) c) (c : Dev nD) (w : Fin 5) :
    Pipeline.afterTail₀ cfgs dats 0 (V0 m) tailOps c (Pipeline.arrRef spec0 w) = (dats 0 c).arrAt w (cfgs 0).N := by
  unfold Pipeline.afterTail₀
  rw [StableHlo.after_of_forall_not_mem (b := Proc.devRef .tc (Pipeline.arrRef spec0 w)) _ _ (tail_flat_keeps _ (arr_kept w))]
  exact Pipeline.withArrays_arr spec0 launch0.win.arr_inj c _ _ w

end Cert.Kernel.Fr

end
-- ==== Proof.KBody.lean ====
/-
  The kernel body at one grid point. It loads its three input blocks whole — 32 batch rows of gathered embeddings
  [32,128,300], the filter matrix [9,300], the bias [1,1,9] —, and stores two whole [32,300] blocks: the rows'
  weighted means (each token weighted by the largest rectified filter score it gets) and the rows' plain means over
  the 128 tokens. Before each store it also loads the output block, a value it never uses.
  Here: what each output's staging buffer holds after the body, as a function of the input blocks (`out0_3`,
  `out0_4`: the one store of each, covering the block), and the body's triple: run on whole staging memrefs holding
  the input blocks, it ends with the inputs as they were and the outputs at those two values.
-/
import proofs.«120177_j61581241090537_2_alg».proof.Proof.Gen.Kernel.Launch
import proofs.«120177_j61581241090537_2_alg».proof.Proof.Gen.Kernel.Skeleton
import proofs.«120177_j61581241090537_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of each staging buffer: what the body's loads and stores address. -/
abbrev rEmb : Rect S32x128x300 := Rect.unit (s := S32x128x300) ![0, 0, 0] S32x128x300.size inb_S32x128x300_S32x128x300_0_0_0
abbrev rW : Rect S9x300 := Rect.unit (s := S9x300) ![0, 0] S9x300.size inb_S9x300_S9x300_0_0
abbrev rB : Rect S1x1x9 := Rect.unit (s := S1x1x9) ![0, 0, 0] S1x1x9.size inb_S1x1x9_S1x1x9_0_0_0
abbrev rOut : Rect S32x300 := Rect.unit (s := S32x300) ![0, 0] S32x300.size inb_S32x300_S32x300_0_0

/-- The weighted-mean output's staging buffer after the body, from the three input blocks. -/
def out0_3 (x0 : Vec F S32x128x300 .f32) (x1 : Vec F S9x300 .f32) (x2 : Vec F S1x1x9 .f32) : Vec F S32x300 .f32 :=
  View.canon [⟨rOut, k0_pay2 (View.ld x0 rEmb) (View.ld x1 rW) (View.ld x2 rB)⟩]
/-- The plain-mean output's staging buffer after the body, from the embeddings block. -/
def out0_4 (x0 : Vec F S32x128x300 .f32) : Vec F S32x300 .f32 :=
  View.canon [⟨rOut, k0_pay3 (View.ld x0 rEmb)⟩]

/-- The one whole-block store covers the output block. -/
theorem cover_out (p0 : Vec F S32x300 .f32) (y : S32x300.Idx) :
    ∃ pc ∈ ([⟨rOut, p0⟩] : List (View.Piece (Elt F) S32x300 .f32)), y ∈ pc.1.set :=
  View.cover_of_tiled [⟨rOut, p0⟩] S32x300.size (by rfl) y

set_option maxHeartbeats 4000000 in
/-- The body on whole staging memrefs, the inputs' at contents `x0`, `x1`, `x2` and the outputs' at anything, runs to
    the continuation holding the inputs' as they were and the outputs' at `out0_3`, `out0_4` of the inputs'. -/
theorem sound_kernel (c : Dev nD) (E : Set ℕ) (i : grid0.Coords)
    (arg1 : Memref sig .tc .vmem S32x128x300 .f32) (harg1 : arg1.IsWhole) (arg2 : Memref sig .tc .vmem S9x300 .f32) (harg2 : arg2.IsWhole)
    (arg3 : Memref sig .tc .vmem S1x1x9 .f32) (harg3 : arg3.IsWhole) (arg4 : Memref sig .tc .vmem S32x300 .f32) (harg4 : arg4.IsWhole)
    (arg5 : Memref sig .tc .vmem S32x300 .f32) (harg5 : arg5.IsWhole)
    (x0 : Vec F S32x128x300 .f32) (x1 : Vec F S9x300 .f32) (x2 : Vec F S1x1x9 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0)) -∗ K ⟨⟩))
      ⊢ wp frame (wpE (defs₀ (F := F)) Variants.none c none) E (cc0__tcnn_kernel i arg1 harg1 arg2 harg2 arg3 harg3 arg4 harg4 arg5 harg5) K := by
  simp only [cc0__tcnn_kernel_eq_skeleton]; unfold cc0__tcnn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  iexists _; isplitr
  swap; · iexact H4
  ipureintro
  exact View.read_writes_eq_canon _ _ _ (cover_out _)

end Cert.Kernel.Fr

end
-- ==== Proof.KFrame.lean ====
/-
  The frame of this program: every weakly fair execution of @main terminates, nothing faults, and the six argument
  arrays end as launched. The region is launched on the library's frame run for an @main that goes on after its
  region: the proof data say, for each of the 64 grid points, that every input's staging buffer holds that point's
  block of its array (rows 32·t … 32·t+31 of the gathered embeddings; the whole filter matrix and bias at every point)
  and that the body leaves in the two outputs' buffers its two stores of those blocks; the body obligation is the
  body's triple at a generic point; the 97 later host operations touch only unscoped buffers, allocate nothing and
  write no array of the pipeline. The run's post names every array after the run — the kernel's two results at what
  the 64 write-backs left — and every other buffer at the later operations' contents; the arguments are among the
  buffers nobody writes.
-/
import proofs.«120177_j61581241090537_2_alg».proof.Proof.KKeeps
import proofs.«120177_j61581241090537_2_alg».proof.Proof.KBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the block
    in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over the region-entry arrays whose body leaves the block
    in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data over the region-entry arrays whose body leaves the block
    in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`: the arrays as the region finds them; after the body at point `t` each
    input's buffer at its block, the weighted-mean output's at `out0_3` and the plain-mean output's at `out0_4` of
    the input blocks; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the 64 points' write-backs left in it and every other unscoped
    buffer at the contents the 97 later host operations compute from them. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame claim's post from the frame run's, for any proof data over the region-entry arrays: the filter matrix,
    which a window stages, by the first clause (an input window's array is never written back), the other five
    arguments by the second and the fact that no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans ((W_rest m dats c main_arg0 (by decide) (by decide)).trans (V_arg m c main_arg0 (by decide))),
      ((h c).2 main_arg1 (Pipeline.mem_restRefs_of main_arg1 (by decide) (by decide))).trans ((W_rest m dats c main_arg1 (by decide) (by decide)).trans (V_arg m c main_arg1 (by decide))),
      ((h c).1 1).trans (((dats 0 c).arrAt_in 1 rfl _).trans ((hA c 1).trans (V_arg m c main_arg2 (by decide)))),
      ((h c).2 main_arg3 (Pipeline.mem_restRefs_of main_arg3 (by decide) (by decide))).trans ((W_rest m dats c main_arg3 (by decide) (by decide)).trans (V_arg m c main_arg3 (by decide))),
      ((h c).2 main_arg4 (Pipeline.mem_restRefs_of main_arg4 (by decide) (by decide))).trans ((W_rest m dats c main_arg4 (by decide) (by decide)).trans (V_arg m c main_arg4 (by decide))),
      ((h c).2 main_arg5 (Pipeline.mem_restRefs_of main_arg5 (by decide) (by decide))).trans ((W_rest m dats c main_arg5 (by decide) (by decide)).trans (V_arg m c main_arg5 (by decide)))⟩) h

/-- THE FRAME of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KIMain.lean ====
/-
  @main of this program is: eleven host operations (the token ids transposed, a negative id wrapped by adding the
  table's 50000 rows, the embedding rows gathered, the bias reshaped to [1,1,9]), ONE region — the kernel on a grid of 64
  points, each reducing a block of 32 batch rows —, and then 97 host operations in nine stretches (two small matrix
  products, two softmaxes, the normalised entropy and its threshold, the concatenation and the two normalisations).
  Here: the buffers' contents when the region is entered (`V0`, `V`), the nine later stretches as one list
  (`tailOps`), that no host operation allocates a buffer, that @main reduces to the region continued by the later
  stretches (`hmain`), and that the later stretches touch only unscoped TensorCore buffers and allocate nothing.
-/
import proofs.«120177_j61581241090537_2_alg».proof.Proof.Gen.KernelIdeal.Launch
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The 97 host operations after the region, stretch by stretch, in program order. -/
abbrev tailOps : List (List (HloOp τ sig (Elt F))) :=
  [hostOps1, hostOps1_1, hostOps1_2, hostOps1_3, hostOps1_4, hostOps1_5, hostOps1_6, hostOps1_7, hostOps1_8]

/-- Core `c`'s TensorCore buffer contents when the region is entered: the launch contents after the eleven host
    operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates: each writes a buffer the program already has. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the earlier host operations, the region, the later ones: holding the buffers at the launch contents it
    reduces to the region CONTINUED BY the later stretches, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch only the pipeline's arrays and the buffers that bypass the region: with nothing
    prefetched, every unscoped TensorCore buffer is one or the other. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

end Cert.KernelIdeal.Fr

end
-- ==== Proof.KIKeeps.lean ====
/-
  Which buffers the host operations leave alone. The host operations before the region write the eleven fresh
  buffers of their own results, so the six argument arrays are, when the region is entered, as launched
  (`V_arg`). The 97 host operations after the region write 97 other fresh buffers: none writes an argument,
  the gathered embeddings, the reshaped bias, or either of the kernel's two result arrays (`tail_flat_keeps`) — in
  particular none writes an array a window of the pipeline stages (`tail_keeps`), and a kept buffer that no window
  stages ends, after them, as the region found it (`W_rest`).
-/
import proofs.«120177_j61581241090537_2_alg».proof.Proof.KIMain

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The buffers no operation after the region writes: the arguments, the gathered embeddings, the reshaped bias and the
    kernel's two results. -/
abbrev kept : List (Ref sig .tc) :=
  [main_arg0, main_arg1, main_arg2, main_arg3, main_arg4, main_arg5, main_v7, main_v8, main_v9_0, main_v9_1]
/-- The argument arrays. -/
abbrev keptArgs : List (Ref sig .tc) := [main_arg0, main_arg1, main_arg2, main_arg3, main_arg4, main_arg5]

theorem kept_ne {L : List (Ref sig .tc)} (b : Ref sig .tc) (hb : b ∈ L) {y : Ref sig .tc} (hy : y ∉ L) : b ≠ y :=
  fun e => hy (e ▸ hb)

/-- Every array a window stages is a kept buffer. -/
theorem arr_kept : ∀ w, Pipeline.arrRef spec0 w ∈ kept := by decide

theorem hostOps0_keeps (b : Ref sig .tc) (hb : b ∈ keptArgs) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_keeps (b : Ref sig .tc) (hb : b ∈ kept) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_1_keeps (b : Ref sig .tc) (hb : b ∈ kept) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_2_keeps (b : Ref sig .tc) (hb : b ∈ kept) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_3_keeps (b : Ref sig .tc) (hb : b ∈ kept) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_4_keeps (b : Ref sig .tc) (hb : b ∈ kept) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_5_keeps (b : Ref sig .tc) (hb : b ∈ kept) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_6_keeps (b : Ref sig .tc) (hb : b ∈ kept) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_7_keeps (b : Ref sig .tc) (hb : b ∈ kept) :
    (hostOps1_7 : List (HloOp τ sig (Elt F))).Forall fun op => Proc.devRef .tc b ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))
theorem hostOps1_8_keeps (b : Ref sig .tc) (hb : b ∈ kept) :
    (hostOps1_8 : List (HloOp τ sig (Elt F))).Forall fun op => Proc.devRef .tc b ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (kept_ne b hb (by decide))

/-- No operation after the region writes a kept buffer, stretch by stretch. -/
theorem tail_keeps_of (b : Ref sig .tc) (hb : b ∈ kept) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl | rfl | rfl | rfl | rfl | rfl | rfl
  · exact (List.forall_iff_forall_mem.mp (hostOps1_keeps b hb)) op hop
  · exact (List.forall_iff_forall_mem.mp (hostOps1_1_keeps b hb)) op hop
  · exact (List.forall_iff_forall_mem.mp (hostOps1_2_keeps b hb)) op hop
  · exact (List.forall_iff_forall_mem.mp (hostOps1_3_keeps b hb)) op hop
  · exact (List.forall_iff_forall_mem.mp (hostOps1_4_keeps b hb)) op hop
  · exact (List.forall_iff_forall_mem.mp (hostOps1_5_keeps b hb)) op hop
  · exact (List.forall_iff_forall_mem.mp (hostOps1_6_keeps b hb)) op hop
  · exact (List.forall_iff_forall_mem.mp (hostOps1_7_keeps b hb)) op hop
  · exact (List.forall_iff_forall_mem.mp (hostOps1_8_keeps b hb)) op hop

/-- The operations after the region write no array of the pipeline. -/
theorem tail_keeps : ∀ ops ∈ (tailOps : List (List (HloOp τ sig (Elt F)))), ∀ op ∈ ops,
    ∀ w, Proc.devRef .tc (Pipeline.arrRef spec0 w) ∉ op.writes :=
  fun ops hops op hop w => tail_keeps_of _ (arr_kept w) ops hops op hop

/-- The same over the nine stretches joined. -/
theorem tail_flat_keeps (b : Ref sig .tc) (hb : b ∈ kept) :
    ∀ op ∈ (tailOps : List (List (HloOp τ sig (Elt F)))).flatten, Proc.devRef .tc b ∉ op.writes := by
  intro op hop
  obtain ⟨ops, hops, hop'⟩ := List.mem_flatten.mp hop
  exact tail_keeps_of b hb ops hops op hop'

/-- An argument array is, when the region is entered, as launched. -/
theorem V_arg (c : Dev nD) (b : Ref sig .tc) (hb : b ∈ keptArgs) : V m c b = m ((c : Thread nD τ).loc b) :=
  StableHlo.after_of_forall_not_mem (b := Proc.devRef .tc b) _ _ (by
    intro op hop
    simp only [List.flatten_cons, List.flatten_nil, List.append_nil] at hop
    exact (List.forall_iff_forall_mem.mp (hostOps0_keeps b hb)) op hop)

/-- A kept buffer that no window stages is, after the operations that follow the region, as the region found it. -/
theorem W_rest (dats : (p : Fin 1) → (c : Dev nD) → Dat τ (Elt F) Unit ℕ (UR sig nD τ) ℕ (cfgs p) c) (c : Dev nD)
    (b : Ref sig .tc) (hb : b ∈ kept) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (tail_flat_keeps b hb),
    Pipeline.withArrays_of_ne _ c (V0 m c) _ b hne]

/-- One of the pipeline's arrays is, after the operations that follow the region, what the region left in it. -/
theorem W_arr (dats : (p : Fin 1) → (c : Dev nD) → Dat τ (Elt F) Unit ℕ (UR sig nD τ) ℕ (cfgs p) c) (c : Dev nD) (w : Fin 5) :
    Pipeline.afterTail₀ cfgs dats 0 (V0 m) tailOps c (Pipeline.arrRef spec0 w) = (dats 0 c).arrAt w (cfgs 0).N := by
  unfold Pipeline.afterTail₀
  rw [StableHlo.after_of_forall_not_mem (b := Proc.devRef .tc (Pipeline.arrRef spec0 w)) _ _ (tail_flat_keeps _ (arr_kept w))]
  exact Pipeline.withArrays_arr spec0 launch0.win.arr_inj c _ _ w

end Cert.KernelIdeal.Fr

end
-- ==== Proof.KIBody.lean ====
/-
  The kernel body at one grid point. It loads its three input blocks whole — 32 batch rows of gathered embeddings
  [32,128,300], the filter matrix [9,300], the bias [1,1,9] —, and stores two whole [32,300] blocks: the rows'
  weighted means (each token weighted by the largest rectified filter score it gets) and the rows' plain means over
  the 128 tokens. Before each store it also loads the output block, a value it never uses.
  Here: what each output's staging buffer holds after the body, as a function of the input blocks (`out0_3`,
  `out0_4`: the one store of each, covering the block), and the body's triple: run on whole staging memrefs holding
  the input blocks, it ends with the inputs as they were and the outputs at those two values.
-/
import proofs.«120177_j61581241090537_2_alg».proof.Proof.Gen.KernelIdeal.Launch
import proofs.«120177_j61581241090537_2_alg».proof.Proof.Gen.KernelIdeal.Skeleton
import proofs.«120177_j61581241090537_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of each staging buffer: what the body's loads and stores address. -/
abbrev rEmb : Rect S32x128x300 := Rect.unit (s := S32x128x300) ![0, 0, 0] S32x128x300.size inb_S32x128x300_S32x128x300_0_0_0
abbrev rW : Rect S9x300 := Rect.unit (s := S9x300) ![0, 0] S9x300.size inb_S9x300_S9x300_0_0
abbrev rB : Rect S1x1x9 := Rect.unit (s := S1x1x9) ![0, 0, 0] S1x1x9.size inb_S1x1x9_S1x1x9_0_0_0
abbrev rOut : Rect S32x300 := Rect.unit (s := S32x300) ![0, 0] S32x300.size inb_S32x300_S32x300_0_0

/-- The weighted-mean output's staging buffer after the body, from the three input blocks. -/
def out0_3 (x0 : Vec F S32x128x300 .f32) (x1 : Vec F S9x300 .f32) (x2 : Vec F S1x1x9 .f32) : Vec F S32x300 .f32 :=
  View.canon [⟨rOut, k0_pay2 (View.ld x0 rEmb) (View.ld x1 rW) (View.ld x2 rB)⟩]
/-- The plain-mean output's staging buffer after the body, from the embeddings block. -/
def out0_4 (x0 : Vec F S32x128x300 .f32) : Vec F S32x300 .f32 :=
  View.canon [⟨rOut, k0_pay3 (View.ld x0 rEmb)⟩]

/-- The one whole-block store covers the output block. -/
theorem cover_out (p0 : Vec F S32x300 .f32) (y : S32x300.Idx) :
    ∃ pc ∈ ([⟨rOut, p0⟩] : List (View.Piece (Elt F) S32x300 .f32)), y ∈ pc.1.set :=
  View.cover_of_tiled [⟨rOut, p0⟩] S32x300.size (by rfl) y

set_option maxHeartbeats 4000000 in
/-- The body on whole staging memrefs, the inputs' at contents `x0`, `x1`, `x2` and the outputs' at anything, runs to
    the continuation holding the inputs' as they were and the outputs' at `out0_3`, `out0_4` of the inputs'. -/
theorem sound_kernel (c : Dev nD) (E : Set ℕ) (i : grid0.Coords)
    (arg1 : Memref sig .tc .vmem S32x128x300 .f32) (harg1 : arg1.IsWhole) (arg2 : Memref sig .tc .vmem S9x300 .f32) (harg2 : arg2.IsWhole)
    (arg3 : Memref sig .tc .vmem S1x1x9 .f32) (harg3 : arg3.IsWhole) (arg4 : Memref sig .tc .vmem S32x300 .f32) (harg4 : arg4.IsWhole)
    (arg5 : Memref sig .tc .vmem S32x300 .f32) (harg5 : arg5.IsWhole)
    (x0 : Vec F S32x128x300 .f32) (x1 : Vec F S9x300 .f32) (x2 : Vec F S1x1x9 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0)) -∗ K ⟨⟩))
      ⊢ wp frame (wpE (defs₀ (F := F)) Variants.none c none) E (cc0__tcnn_kernel i arg1 harg1 arg2 harg2 arg3 harg3 arg4 harg4 arg5 harg5) K := by
  simp only [cc0__tcnn_kernel_eq_skeleton]; unfold cc0__tcnn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  iexists _; isplitr
  swap; · iexact H4
  ipureintro
  exact View.read_writes_eq_canon _ _ _ (cover_out _)

end Cert.KernelIdeal.Fr

end
-- ==== Proof.KIFrame.lean ====
/-
  The frame of this program: every weakly fair execution of @main terminates, nothing faults, and the six argument
  arrays end as launched. The region is launched on the library's frame run for an @main that goes on after its
  region: the proof data say, for each of the 64 grid points, that every input's staging buffer holds that point's
  block of its array (rows 32·t … 32·t+31 of the gathered embeddings; the whole filter matrix and bias at every point)
  and that the body leaves in the two outputs' buffers its two stores of those blocks; the body obligation is the
  body's triple at a generic point; the 97 later host operations touch only unscoped buffers, allocate nothing and
  write no array of the pipeline. The run's post names every array after the run — the kernel's two results at what
  the 64 write-backs left — and every other buffer at the later operations' contents; the arguments are among the
  buffers nobody writes.
-/
import proofs.«120177_j61581241090537_2_alg».proof.Proof.KIKeeps
import proofs.«120177_j61581241090537_2_alg».proof.Proof.KIBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the block
    in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over the region-entry arrays whose body leaves the block
    in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data over the region-entry arrays whose body leaves the block
    in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`: the arrays as the region finds them; after the body at point `t` each
    input's buffer at its block, the weighted-mean output's at `out0_3` and the plain-mean output's at `out0_4` of
    the input blocks; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the 64 points' write-backs left in it and every other unscoped
    buffer at the contents the 97 later host operations compute from them. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame claim's post from the frame run's, for any proof data over the region-entry arrays: the filter matrix,
    which a window stages, by the first clause (an input window's array is never written back), the other five
    arguments by the second and the fact that no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans ((W_rest m dats c main_arg0 (by decide) (by decide)).trans (V_arg m c main_arg0 (by decide))),
      ((h c).2 main_arg1 (Pipeline.mem_restRefs_of main_arg1 (by decide) (by decide))).trans ((W_rest m dats c main_arg1 (by decide) (by decide)).trans (V_arg m c main_arg1 (by decide))),
      ((h c).1 1).trans (((dats 0 c).arrAt_in 1 rfl _).trans ((hA c 1).trans (V_arg m c main_arg2 (by decide)))),
      ((h c).2 main_arg3 (Pipeline.mem_restRefs_of main_arg3 (by decide) (by decide))).trans ((W_rest m dats c main_arg3 (by decide) (by decide)).trans (V_arg m c main_arg3 (by decide))),
      ((h c).2 main_arg4 (Pipeline.mem_restRefs_of main_arg4 (by decide) (by decide))).trans ((W_rest m dats c main_arg4 (by decide) (by decide)).trans (V_arg m c main_arg4 (by decide))),
      ((h c).2 main_arg5 (Pipeline.mem_restRefs_of main_arg5 (by decide) (by decide))).trans ((W_rest m dats c main_arg5 (by decide) (by decide)).trans (V_arg m c main_arg5 (by decide)))⟩) h

/-- THE FRAME of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.Spec.lean ====
/-
  What the two arrays handed from the first half of the computation to the second hold, as functions of token
  embeddings `emb` [n,128,300] (batch row, token, feature), the filter matrix `w` [9,300] and the filter bias `cb` [9],
  on the extended reals:
    score b s f  = max (Σ_e emb[b,s,e]·w[f,e] + cb[f]) 0          the rectified score of token s of row b under filter f
    weight b s   = the maximum over the nine filters of score b s f, folded from −∞
    sen[b,e]     = (Σ_s emb[b,s,e]·weight b s) / 128                the row's weighted mean embedding
    mean[b,e]    = (Σ_s emb[b,s,e]) / 128                           the row's plain mean embedding
  The number of batch rows `n` is a parameter: the reference computes them over all 2048 rows at once, the kernel
  over 32 rows at a time, and a row's values depend on that row of `emb` alone (`sen_rows`, `mean_rows`).
  The three float constants stay the words the programs print (0, −∞ and 128 as f32 words): both programs print the
  same words, so nothing here evaluates them.
-/
import Idealize.ShloMosaic.PureOps.Ideal
import Idealize.ShloMosaic.Lib.ValueIdx

noncomputable section

namespace Cert.Spec

open Idealize.ShloMosaic Idealize.ShloMosaic.ValueIdx

/-- The f32 words the programs print: zero, minus infinity and 128. -/
abbrev zeroW : EReal := Ideal.ofBits .f32 0x00000000#32
abbrev negInfW : EReal := Ideal.ofBits .f32 0xFF800000#32
abbrev c128W : EReal := Ideal.ofBits .f32 0x43000000#32

variable {n : Nat}

/-- The rectified score of token `s` of batch row `b` under filter `f`. -/
def score (emb : (⟨3, ![n, 128, 300]⟩ : Shape).Idx → EReal) (w : (⟨2, ![9, 300]⟩ : Shape).Idx → EReal)
    (cb : (⟨1, ![9]⟩ : Shape).Idx → EReal) (b : Fin n) (s : Fin 128) (f : Fin 9) : EReal :=
  max ((∑ e : Fin 300, emb (ix3 b s e) * w (ix2 f e)) + cb (ix1 f)) zeroW

/-- The token's weight: its largest rectified score over the nine filters. -/
def weight (emb : (⟨3, ![n, 128, 300]⟩ : Shape).Idx → EReal) (w : (⟨2, ![9, 300]⟩ : Shape).Idx → EReal)
    (cb : (⟨1, ![9]⟩ : Shape).Idx → EReal) (b : Fin n) (s : Fin 128) : EReal :=
  (Finset.univ : Finset (Fin 9)).fold max negInfW (fun f => score emb w cb b s f)

/-- The rows' weighted mean embeddings. -/
def sen (emb : (⟨3, ![n, 128, 300]⟩ : Shape).Idx → EReal) (w : (⟨2, ![9, 300]⟩ : Shape).Idx → EReal)
    (cb : (⟨1, ![9]⟩ : Shape).Idx → EReal) : (⟨2, ![n, 300]⟩ : Shape).Idx → EReal := fun i =>
  Ideal.div (∑ s : Fin 128, emb (ix3 (i 0) s (i 1)) * weight emb w cb (i 0) s) c128W

/-- The rows' plain mean embeddings. -/
def mean (emb : (⟨3, ![n, 128, 300]⟩ : Shape).Idx → EReal) : (⟨2, ![n, 300]⟩ : Shape).Idx → EReal := fun i =>
  Ideal.div (∑ s : Fin 128, emb (ix3 (i 0) s (i 1))) c128W

/-- A row's weighted mean depends on that row of the embeddings alone: if rows `p` of `blk` are rows `r p` of `emb`,
    the block's values are the whole array's at those rows. -/
theorem sen_rows {k : Nat} (blk : (⟨3, ![k, 128, 300]⟩ : Shape).Idx → EReal) (emb : (⟨3, ![n, 128, 300]⟩ : Shape).Idx → EReal)
    (w : (⟨2, ![9, 300]⟩ : Shape).Idx → EReal) (cb : (⟨1, ![9]⟩ : Shape).Idx → EReal) (r : Fin k → Fin n)
    (h : ∀ p s e, blk (ix3 p s e) = emb (ix3 (r p) s e)) (p : Fin k) (q : Fin 300) :
    sen blk w cb (ix2 p q) = sen emb w cb (ix2 (r p) q) := by
  show Ideal.div (∑ s : Fin 128, blk (ix3 p s q) * weight blk w cb p s) c128W
    = Ideal.div (∑ s : Fin 128, emb (ix3 (r p) s q) * weight emb w cb (r p) s) c128W
  have hw : ∀ s, weight blk w cb p s = weight emb w cb (r p) s := by
    intro s
    unfold weight score
    simp only [h]
  simp only [h, hw]

theorem mean_rows {k : Nat} (blk : (⟨3, ![k, 128, 300]⟩ : Shape).Idx → EReal) (emb : (⟨3, ![n, 128, 300]⟩ : Shape).Idx → EReal)
    (r : Fin k → Fin n) (h : ∀ p s e, blk (ix3 p s e) = emb (ix3 (r p) s e)) (p : Fin k) (q : Fin 300) :
    mean blk (ix2 p q) = mean emb (ix2 (r p) q) := by
  show Ideal.div (∑ s : Fin 128, blk (ix3 p s q)) c128W = Ideal.div (∑ s : Fin 128, emb (ix3 (r p) s q)) c128W
  simp only [h]

end Cert.Spec

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KIPay.lean ====
/-
  What the kernel body stores, read index by index on the extended reals. The body flattens its block of 32 batch rows
  [32,128,300] to [4096,300] (row 128·p+s is token s of block row p), multiplies by the transposed filter matrix into the zero
  accumulator, un-flattens the [4096,9] scores to [32,128,9], adds the bias (broadcast from [1,1,9]), rectifies, takes
  each token's maximum over the nine filters, re-shapes those [32,128] weights to [32,128,1], broadcasts them along the
  features, multiplies the embeddings by them, sums over the 128 tokens and divides by 128; the second store is the
  plain sum over the tokens divided by 128. Narrowing to bf16 is the identity on the extended reals.
  Each layout step reads its operand at one index (`flat_read` … `keep_bcast`); the product is a sum over the
  contracted feature axis; the two reductions are a fold of `max` from −∞ and a sum. So the first store is the
  specification's `sen` and the second its `mean`, of the block's 32 rows (`pay2_apply`, `pay3_apply`).
-/
import proofs.«120177_j61581241090537_2_alg».proof.Proof.Gen.KernelIdeal.Skeleton
import proofs.«120177_j61581241090537_2_alg».proof.Proof.Spec
import proofs.«120177_j61581241090537_2_alg».proof.Proof.LibMatmul
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Idealize.SL.Sem

/-- The row of the flattened block that holds token `s` of block row `p`. -/
abbrev flat (p : Fin 32) (s : Fin 128) : Fin 4096 := ⟨p.val * 128 + s.val, by have := p.isLt; have := s.isLt; omega⟩

/-- The bias as a function of the filter alone, read off its [1,1,9] block. -/
abbrev cbOf (x8 : FVec Ideal S1x1x9 .f32) : (⟨1, ![9]⟩ : Shape).Idx → EReal := fun j => x8 (ix3 (0 : Fin 1) (0 : Fin 1) (j 0))

/-! ## The layout steps, each read at an index -/

theorem flat_read (x : FVec Ideal S32x128x300 .f32) (p : Fin 32) (s : Fin 128) (e : Fin 300) :
    shapeCast S4096x300 x shapeCasts_S32x128x300_S4096x300 (ix2 (flat p s) e) = x (ix3 p s e) :=
  shapeCast_apply x _ (ix2 (flat p s) e) (ix3 p s e) (by
    rw [Shape.rowMajor_val_three, Shape.rowMajor_val_two]
    show (p.val * 128 + s.val) * 300 + e.val = (p.val * 128 + s.val) * 300 + e.val
    rfl)

theorem unflat_read (y : FVec Ideal S4096x9 .f32) (p : Fin 32) (s : Fin 128) (f : Fin 9) :
    shapeCast S32x128x9 y shapeCasts_S4096x9_S32x128x9 (ix3 p s f) = y (ix2 (flat p s) f) :=
  shapeCast_apply y _ (ix3 p s f) (ix2 (flat p s) f) (by
    rw [Shape.rowMajor_val_three, Shape.rowMajor_val_two]
    show (p.val * 128 + s.val) * 9 + f.val = (p.val * 128 + s.val) * 9 + f.val
    rfl)

theorem bias_read (v : FVec Ideal S1x1x9 .f32) (p : Fin 32) (s : Fin 128) (f : Fin 9) :
    broadcastTo S32x128x9 v broadcasts_S1x1x9_S32x128x9 (ix3 p s f) = v (ix3 (0 : Fin 1) (0 : Fin 1) f) :=
  broadcastTo_apply v _ (ix3 p s f) (ix3 (0 : Fin 1) (0 : Fin 1) f) (fun a => match a with
    | ⟨0, _⟩ => rfl
    | ⟨1, _⟩ => rfl
    | ⟨2, _⟩ => rfl)

theorem keep_read (y : FVec Ideal S32x128 .f32) (p : Fin 32) (s : Fin 128) :
    shapeCast S32x128x1 y shapeCasts_S32x128_S32x128x1 (ix3 p s (0 : Fin 1)) = y (ix2 p s) :=
  shapeCast_apply y _ (ix3 p s (0 : Fin 1)) (ix2 p s) (by
    rw [Shape.rowMajor_val_two, Shape.rowMajor_val_three]
    show p.val * 128 + s.val = (p.val * 128 + s.val) * 1 + 0
    omega)

theorem keep_bcast (v : FVec Ideal S32x128x1 .f32) (p : Fin 32) (s : Fin 128) (q : Fin 300) :
    broadcastTo S32x128x300 v broadcasts_S32x128x1_S32x128x300 (ix3 p s q) = v (ix3 p s (0 : Fin 1)) :=
  broadcastTo_apply v _ (ix3 p s q) (ix3 p s (0 : Fin 1)) (fun a => match a with
    | ⟨0, _⟩ => rfl
    | ⟨1, _⟩ => rfl
    | ⟨2, _⟩ => rfl)

/-- The index a reduction over the filter axis reads: the token's index with the filter inserted. -/
theorem lift_filter (p : Fin 32) (s : Fin 128) (f : Fin 9) :
    reduces_S32x128x9_S32x128.lift (ix2 p s) f = ix3 p s f :=
  funext fun a => Fin.ext (match a with
    | ⟨0, _⟩ => rfl
    | ⟨1, _⟩ => rfl
    | ⟨2, _⟩ => rfl)

/-- The index a reduction over the token axis reads: the output index with the token inserted. -/
theorem lift_token (p : Fin 32) (q : Fin 300) (s : Fin 128) :
    reduces_S32x128x300_S32x300.lift (ix2 p q) s = ix3 p s q :=
  funext fun a => Fin.ext (match a with
    | ⟨0, _⟩ => rfl
    | ⟨1, _⟩ => rfl
    | ⟨2, _⟩ => rfl)

/-! ## The scores and the weights of a block -/

/-- The product's left operand index keeps the output's row; its right operand index takes the output's column as its
    row (the filter): the two non-contracted coordinates. -/
theorem lhs_row (j : S4096x9.Idx) (q : dot_S4096x300_S9x300_S4096x9_1_1_0_0_n_n.contr.Idx) :
    (dot_S4096x300_S9x300_S4096x9_1_1_0_0_n_n.lhsIdx j q 0).val = (j 0).val := by
  unfold DotDims.lhsIdx
  rw [dif_neg (show ¬(0 : Fin S4096x300.rank) ∈ dot_S4096x300_S9x300_S4096x9_1_1_0_0_n_n.lhsBatch by decide),
    dif_pos (show (0 : Fin S4096x300.rank) ∈ dot_S4096x300_S9x300_S4096x9_1_1_0_0_n_n.lhsNonContracting by decide)]
  rfl
theorem rhs_row (j : S4096x9.Idx) (q : dot_S4096x300_S9x300_S4096x9_1_1_0_0_n_n.contr.Idx) :
    (dot_S4096x300_S9x300_S4096x9_1_1_0_0_n_n.rhsIdx j q 0).val = (j 1).val := by
  unfold DotDims.rhsIdx
  rw [dif_neg (show ¬(0 : Fin S9x300.rank) ∈ dot_S4096x300_S9x300_S4096x9_1_1_0_0_n_n.rhsBatch by decide),
    dif_pos (show (0 : Fin S9x300.rank) ∈ dot_S4096x300_S9x300_S4096x9_1_1_0_0_n_n.rhsNonContracting by decide)]
  rfl

/-- The product of the flattened block with the transposed filter matrix, at (token row, filter): the sum over the
    300 features. -/
theorem prod_apply (x0 : FVec Ideal S32x128x300 .f32) (x4 : FVec Ideal S9x300 .f32) (p : Fin 32) (s : Fin 128) (f : Fin 9) :
    matmul dot_S4096x300_S9x300_S4096x9_1_1_0_0_n_n none
        (truncf .bf16 (shapeCast S4096x300 (k0_pay1 x0) shapeCasts_S32x128x300_S4096x300) bitsLt_bf16_f32)
        (truncf .bf16 x4 bitsLt_bf16_f32) (constant (F := Ideal) S4096x9 .f32 0x00000000#32) (ix2 (flat p s) f)
      = ∑ e : Fin 300, x0 (ix3 p s e) * x4 (ix2 f e) := by
  refine (Cert.LibMatmul.matmul_zero_sum1 dot_S4096x300_S9x300_S4096x9_1_1_0_0_n_n none 300 rfl rfl _ _ (ix2 (flat p s) f)
    (fun e => ix2 (flat p s) e) (fun e => ix2 f e) ?_ ?_).trans ?_
  · intro q k hk
    refine funext fun a => Fin.ext ?_
    match a with
    | ⟨0, _⟩ => exact lhs_row _ q
    | ⟨1, _⟩ => exact (dot_S4096x300_S9x300_S4096x9_1_1_0_0_n_n.lhsIdx_val_of_single rfl _ q).trans hk
  · intro q k hk
    refine funext fun a => Fin.ext ?_
    match a with
    | ⟨0, _⟩ => exact rhs_row _ q
    | ⟨1, _⟩ => exact (dot_S4096x300_S9x300_S4096x9_1_1_0_0_n_n.rhsIdx_val_of_single rfl _ q).trans hk
  · refine Finset.sum_congr rfl fun e _ => ?_
    show shapeCast S4096x300 (k0_pay1 x0) shapeCasts_S32x128x300_S4096x300 (ix2 (flat p s) e) * x4 (ix2 f e) = _
    rw [flat_read]
    unfold k0_pay1
    rw [shapeCast_self]

/-- The block's rectified scores, as the body computes them. -/
def scoresB (x0 : FVec Ideal S32x128x300 .f32) (x4 : FVec Ideal S9x300 .f32) (x8 : FVec Ideal S1x1x9 .f32) : FVec Ideal S32x128x9 .f32 :=
  maximumf (addf
      (shapeCast S32x128x9 (matmul dot_S4096x300_S9x300_S4096x9_1_1_0_0_n_n none
        (truncf .bf16 (shapeCast S4096x300 (k0_pay1 x0) shapeCasts_S32x128x300_S4096x300) bitsLt_bf16_f32)
        (truncf .bf16 x4 bitsLt_bf16_f32) (constant (F := Ideal) S4096x9 .f32 0x00000000#32)) shapeCasts_S4096x9_S32x128x9)
      (broadcastTo S32x128x9 (shapeCast S1x1x9 x8 shapeCasts_S1x1x9_S1x1x9) broadcasts_S1x1x9_S32x128x9))
    (broadcast S32x128x9 (Scalar.ofBits (F := Ideal) .f32 0x00000000#32))

theorem scoresB_apply (x0 : FVec Ideal S32x128x300 .f32) (x4 : FVec Ideal S9x300 .f32) (x8 : FVec Ideal S1x1x9 .f32)
    (p : Fin 32) (s : Fin 128) (f : Fin 9) :
    scoresB x0 x4 x8 (ix3 p s f) = Cert.Spec.score x0 x4 (cbOf x8) p s f := by
  unfold scoresB Cert.Spec.score
  show max (shapeCast S32x128x9 _ shapeCasts_S4096x9_S32x128x9 (ix3 p s f)
      + broadcastTo S32x128x9 (shapeCast S1x1x9 x8 shapeCasts_S1x1x9_S1x1x9) broadcasts_S1x1x9_S32x128x9 (ix3 p s f)) _ = _
  rw [unflat_read, bias_read, shapeCast_self, prod_apply]
  rfl

/-- The block's token weights, as the body computes them: the maximum over the filters, from −∞. -/
def weightsB (x0 : FVec Ideal S32x128x300 .f32) (x4 : FVec Ideal S9x300 .f32) (x8 : FVec Ideal S1x1x9 .f32) : FVec Ideal S32x128 .f32 :=
  multiReduction .maximumf [2] S32x128 (scoresB x0 x4 x8) 0xFF800000#32 reduces_S32x128x9_S32x128 (.inl rfl) rfl

theorem weightsB_apply (x0 : FVec Ideal S32x128x300 .f32) (x4 : FVec Ideal S9x300 .f32) (x8 : FVec Ideal S1x1x9 .f32)
    (p : Fin 32) (s : Fin 128) :
    weightsB x0 x4 x8 (ix2 p s) = Cert.Spec.weight x0 x4 (cbOf x8) p s := by
  unfold weightsB Cert.Spec.weight
  refine (Ideal.multiReduction_maximumf_single (scoresB x0 x4 x8) 0xFF800000#32 reduces_S32x128x9_S32x128 _ _ (ix2 p s)).trans ?_
  show (Finset.univ : Finset (Fin 9)).fold max (Ideal.ofBits .f32 0xFF800000#32)
      (fun f : Fin 9 => scoresB x0 x4 x8 (reduces_S32x128x9_S32x128.lift (ix2 p s) f))
    = (Finset.univ : Finset (Fin 9)).fold max (Ideal.ofBits .f32 0xFF800000#32) (fun f : Fin 9 => Cert.Spec.score x0 x4 (cbOf x8) p s f)
  refine congrArg (fun g : Fin 9 → EReal => (Finset.univ : Finset (Fin 9)).fold max (Ideal.ofBits .f32 0xFF800000#32) g)
    (funext fun f : Fin 9 => ?_)
  exact (congrArg (scoresB x0 x4 x8) (lift_filter p s f)).trans (scoresB_apply x0 x4 x8 p s f)

/-! ## The two stored values -/

/-- The first store is the specification's weighted means of the block's 32 rows. -/
theorem pay2_apply (x0 : FVec Ideal S32x128x300 .f32) (x4 : FVec Ideal S9x300 .f32) (x8 : FVec Ideal S1x1x9 .f32)
    (p : Fin 32) (q : Fin 300) :
    k0_pay2 (F := Ideal) x0 x4 x8 (ix2 p q) = Cert.Spec.sen x0 x4 (cbOf x8) (ix2 p q) := by
  show Ideal.div (multiReduction .add [1] S32x300
        (mulf (k0_pay1 x0) (broadcastTo S32x128x300 (shapeCast S32x128x1 (weightsB x0 x4 x8) shapeCasts_S32x128_S32x128x1)
          broadcasts_S32x128x1_S32x128x300)) 0x00000000#32 reduces_S32x128x300_S32x300 (.inl rfl) rfl (ix2 p q))
      (Ideal.ofBits .f32 0x43000000#32)
    = Ideal.div (∑ s : Fin 128, x0 (ix3 p s q) * Cert.Spec.weight x0 x4 (cbOf x8) p s) (Ideal.ofBits .f32 0x43000000#32)
  refine congrArg (fun z => Ideal.div z (Ideal.ofBits .f32 0x43000000#32)) ?_
  refine (Ideal.multiReduction_add_single _ 0x00000000#32 reduces_S32x128x300_S32x300 _ _ (ix2 p q)).trans ?_
  show ∑ s : Fin 128, (mulf (k0_pay1 x0) (broadcastTo S32x128x300 (shapeCast S32x128x1 (weightsB x0 x4 x8) shapeCasts_S32x128_S32x128x1)
          broadcasts_S32x128x1_S32x128x300)) (reduces_S32x128x300_S32x300.lift (ix2 p q) s) = _
  refine Finset.sum_congr rfl fun s _ => ?_
  rw [lift_token]
  show k0_pay1 x0 (ix3 p s q) * broadcastTo S32x128x300 (shapeCast S32x128x1 (weightsB x0 x4 x8) shapeCasts_S32x128_S32x128x1)
          broadcasts_S32x128x1_S32x128x300 (ix3 p s q) = _
  rw [keep_bcast, keep_read, weightsB_apply]
  unfold k0_pay1
  rw [shapeCast_self]

/-- The second store is the specification's plain means of the block's 32 rows. -/
theorem pay3_apply (x0 : FVec Ideal S32x128x300 .f32) (p : Fin 32) (q : Fin 300) :
    k0_pay3 (F := Ideal) x0 (ix2 p q) = Cert.Spec.mean x0 (ix2 p q) := by
  show Ideal.div (multiReduction (F := Ideal) .add [1] S32x300 (k0_pay1 (F := Ideal) x0) 0x00000000#32 reduces_S32x128x300_S32x300 (.inl rfl) rfl (ix2 p q))
      (Ideal.ofBits .f32 0x43000000#32)
    = Ideal.div (∑ s : Fin 128, x0 (ix3 p s q)) (Ideal.ofBits .f32 0x43000000#32)
  refine congrArg (fun z => Ideal.div z (Ideal.ofBits .f32 0x43000000#32)) ?_
  refine (Ideal.multiReduction_add_single _ 0x00000000#32 reduces_S32x128x300_S32x300 _ _ (ix2 p q)).trans ?_
  show ∑ s : Fin 128, k0_pay1 (F := Ideal) x0 (reduces_S32x128x300_S32x300.lift (ix2 p q) s) = _
  refine Finset.sum_congr rfl fun s _ => ?_
  rw [lift_token]
  unfold k0_pay1
  rw [shapeCast_self]

end Cert.KernelIdeal.Pay

end
-- ==== Proof.KIArr.lean ====
/-
  The kernel's two result arrays after its 64 grid points. Point t stages rows 32·t … 32·t+31 of the gathered
  embeddings (all tokens, all features), the whole filter matrix and the whole bias, and writes rows 32·t … 32·t+31 of
  each result back. What it writes is the specification's weighted means (plain means) of its 32-row block, and a
  row's values depend on that row of the embeddings alone, so block t of each result is block t of the specification
  taken over all 2048 rows at once (`flushed3_eq`, `flushed4_eq`). The 64 blocks fill each result array — row r lies
  in the block of point r / 32 — so after the run each array IS the specification of the arrays the region found
  (`final3`, `final4`).
-/
import proofs.«120177_j61581241090537_2_alg».proof.Proof.KIFrame
import proofs.«120177_j61581241090537_2_alg».proof.Proof.KIPay

set_option maxRecDepth 16384

noncomputable section

namespace Cert.KernelIdeal.Arr

open Cert.KernelIdeal Cert.KernelIdeal.Gen Cert.KernelIdeal.Fr Cert.KernelIdeal.Pay
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the embeddings' and the two results' blocks move along the batch
    rows with the point; the filter matrix and the bias are one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The rows' weighted means over all 2048 rows, of the arrays the region finds. -/
def senA (c : Dev nD) : S2048x300.Idx → EReal :=
  Cert.Spec.sen (V m c main_v7) (V m c main_arg2) (cbOf (V m c main_v8))
/-- The rows' plain means over all 2048 rows, of the gathered embeddings the region finds. -/
def meanA (c : Dev nD) : S2048x300.Idx → EReal := Cert.Spec.mean (V m c main_v7)

/-- What the body stores first, at index `j` of its block, is the whole-array specification at the index `i` that `j`
    embeds to, when the three loaded blocks are the blocks of point `tv`. -/
theorem sen_block (X0 : FVec Ideal S32x128x300 .f32) (X1 : FVec Ideal S9x300 .f32) (X2 : FVec Ideal S1x1x9 .f32)
    (E : FVec Ideal S2048x128x300 .f32) (W : FVec Ideal S9x300 .f32) (B : FVec Ideal S1x1x9 .f32) (tv : Nat) (htv : tv < 64)
    (h0 : ∀ (p : Fin 32) (s : Fin 128) (e : Fin 300),
      X0 (ix3 p s e) = E (ix3 (⟨tv * 32 + p.val, by have := p.isLt; omega⟩ : Fin 2048) s e))
    (h1 : ∀ (f : Fin 9) (e : Fin 300), X1 (ix2 f e) = W (ix2 f e))
    (h2 : ∀ f : Fin 9, X2 (ix3 (0 : Fin 1) (0 : Fin 1) f) = B (ix3 (0 : Fin 1) (0 : Fin 1) f))
    (j : S32x300.Idx) (i : S2048x300.Idx) (hi0 : (i 0).val = tv * 32 + (j 0).val) (hi1 : (i 1).val = (j 1).val) :
    k0_pay2 (F := Ideal) X0 X1 X2 j = Cert.Spec.sen E W (cbOf B) i := by
  obtain ⟨p, q, rfl⟩ : ∃ (p : Fin 32) (q : Fin 300), j = ix2 p q := ⟨j 0, j 1, eq_ix2 j⟩
  have hi : i = ix2 (⟨tv * 32 + p.val, by have := p.isLt; omega⟩ : Fin 2048) q := by
    funext a; apply Fin.ext
    match a with
    | ⟨0, _⟩ => exact hi0
    | ⟨1, _⟩ => exact hi1
  have hW : X1 = W := funext fun y => by rw [eq_ix2 y]; exact h1 _ _
  have hB : cbOf X2 = cbOf B := funext fun y => h2 (y 0)
  rw [hi, pay2_apply, hW, hB]
  exact Cert.Spec.sen_rows X0 E W (cbOf B) (fun p => ⟨tv * 32 + p.val, by have := p.isLt; omega⟩) h0 p q

/-- The same for the second store. -/
theorem mean_block (X0 : FVec Ideal S32x128x300 .f32) (E : FVec Ideal S2048x128x300 .f32) (tv : Nat) (htv : tv < 64)
    (h0 : ∀ (p : Fin 32) (s : Fin 128) (e : Fin 300),
      X0 (ix3 p s e) = E (ix3 (⟨tv * 32 + p.val, by have := p.isLt; omega⟩ : Fin 2048) s e))
    (j : S32x300.Idx) (i : S2048x300.Idx) (hi0 : (i 0).val = tv * 32 + (j 0).val) (hi1 : (i 1).val = (j 1).val) :
    k0_pay3 (F := Ideal) X0 j = Cert.Spec.mean E i := by
  obtain ⟨p, q, rfl⟩ : ∃ (p : Fin 32) (q : Fin 300), j = ix2 p q := ⟨j 0, j 1, eq_ix2 j⟩
  have hi : i = ix2 (⟨tv * 32 + p.val, by have := p.isLt; omega⟩ : Fin 2048) q := by
    funext a; apply Fin.ext
    match a with
    | ⟨0, _⟩ => exact hi0
    | ⟨1, _⟩ => exact hi1
  rw [hi, pay3_apply]
  exact Cert.Spec.mean_rows X0 E (fun p => ⟨tv * 32 + p.val, by have := p.isLt; omega⟩) h0 p q

/-- The embeddings' block at point `t` is rows 32·t … of the gathered embeddings. -/
theorem emb_block (c : Dev nD) (t : Fin cfg0.N) (p : Fin 32) (s : Fin 128) (e : Fin 300) :
    iblk m c 0 t (ix3 p s e) = V m c main_v7 (ix3 (⟨t.val * 32 + p.val, by
      have := p.isLt; have : t.val < 64 := lt_of_lt_of_eq t.isLt N_0; omega⟩ : Fin 2048) s e) := by
  obtain ⟨e00, e01, e02, -⟩ := idx_facts t
  show V m c main_v7 (((cfg0.win 0).blk t).view.emb (ix3 p s e)) = V m c main_v7 (ix3 _ s e)
  refine congrArg (V m c main_v7) (funext fun a => Fin.ext ?_)
  match a with
  | ⟨0, _⟩ => show win0_0.index t (0 : Fin 3) * 32 + 1 * p.val = t.val * 32 + p.val; omega
  | ⟨1, _⟩ => show win0_0.index t (1 : Fin 3) * 128 + 1 * s.val = s.val; omega
  | ⟨2, _⟩ => show win0_0.index t (2 : Fin 3) * 300 + 1 * e.val = e.val; omega

/-- The filter matrix's block at every point is the whole matrix. -/
theorem w_block (c : Dev nD) (t : Fin cfg0.N) (f : Fin 9) (e : Fin 300) :
    iblk m c 1 t (ix2 f e) = V m c main_arg2 (ix2 f e) := by
  obtain ⟨-, -, -, e10, e11, -⟩ := idx_facts t
  show V m c main_arg2 (((cfg0.win 1).blk t).view.emb (ix2 f e)) = V m c main_arg2 (ix2 f e)
  refine congrArg (V m c main_arg2) (funext fun a => Fin.ext ?_)
  match a with
  | ⟨0, _⟩ => show win0_1.index t (0 : Fin 2) * 9 + 1 * f.val = f.val; omega
  | ⟨1, _⟩ => show win0_1.index t (1 : Fin 2) * 300 + 1 * e.val = e.val; omega

/-- The bias's block at every point is the whole [1,1,9] array. -/
theorem b_block (c : Dev nD) (t : Fin cfg0.N) (f : Fin 9) :
    iblk m c 2 t (ix3 (0 : Fin 1) (0 : Fin 1) f) = V m c main_v8 (ix3 (0 : Fin 1) (0 : Fin 1) f) := by
  obtain ⟨-, -, -, -, -, e20, e21, e22, -⟩ := idx_facts t
  show V m c main_v8 (((cfg0.win 2).blk t).view.emb (ix3 (0 : Fin 1) (0 : Fin 1) f)) = V m c main_v8 (ix3 (0 : Fin 1) (0 : Fin 1) f)
  refine congrArg (V m c main_v8) (funext fun a => Fin.ext ?_)
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 9 + 1 * f.val = f.val; omega

/-- WHAT POINT `t` WRITES BACK into the first result is block `t` of the whole-array weighted means. -/
theorem flushed3_eq (c : Dev nD) (t : Fin cfg0.N) :
    (dats m 0 c).flushed 3 t = ((cfg0.win 3).blk t).view.read (Elt Ideal) (senA m c) := by
  show (cfg0.win 3).cut (grid0.coords t) ((dats m 0 c).after 3 t) = _
  rw [after0_3]
  unfold out0_3
  rw [View.canon_unit_zero hz2]
  simp only [View.ld_unit_zero (S := S32x128x300) hz3, View.ld_unit_zero (S := S9x300) hz2, View.ld_unit_zero (S := S1x1x9) hz3]
  obtain ⟨-, -, -, -, -, -, -, -, e30, e31, -⟩ := idx_facts t
  have ht : t.val < 64 := lt_of_lt_of_eq t.isLt N_0
  funext j
  show k0_pay2 (F := Ideal) (iblk m c 0 t) (iblk m c 1 t) (iblk m c 2 t) j = senA m c (((cfg0.win 3).blk t).view.emb j)
  exact sen_block (iblk m c 0 t) (iblk m c 1 t) (iblk m c 2 t) (V m c main_v7) (V m c main_arg2) (V m c main_v8) t.val ht
    (emb_block m c t) (w_block m c t) (b_block m c t) j (((cfg0.win 3).blk t).view.emb j)
    (by show win0_3.index t (0 : Fin 2) * 32 + 1 * (j 0).val = t.val * 32 + (j 0).val; omega)
    (by show win0_3.index t (1 : Fin 2) * 300 + 1 * (j 1).val = (j 1).val; omega)

/-- WHAT POINT `t` WRITES BACK into the second result is block `t` of the whole-array plain means. -/
theorem flushed4_eq (c : Dev nD) (t : Fin cfg0.N) :
    (dats m 0 c).flushed 4 t = ((cfg0.win 4).blk t).view.read (Elt Ideal) (meanA m c) := by
  show (cfg0.win 4).cut (grid0.coords t) ((dats m 0 c).after 4 t) = _
  rw [after0_4]
  unfold out0_4
  rw [View.canon_unit_zero hz2]
  simp only [View.ld_unit_zero (S := S32x128x300) hz3]
  obtain ⟨-, -, -, -, -, -, -, -, -, -, e40, e41⟩ := idx_facts t
  have ht : t.val < 64 := lt_of_lt_of_eq t.isLt N_0
  funext j
  show k0_pay3 (F := Ideal) (iblk m c 0 t) j = meanA m c (((cfg0.win 4).blk t).view.emb j)
  exact mean_block (iblk m c 0 t) (V m c main_v7) t.val ht (emb_block m c t) j (((cfg0.win 4).blk t).view.emb j)
    (by show win0_4.index t (0 : Fin 2) * 32 + 1 * (j 0).val = t.val * 32 + (j 0).val; omega)
    (by show win0_4.index t (1 : Fin 2) * 300 + 1 * (j 1).val = (j 1).val; omega)

/-- An index of a result array is in point `t`'s block iff each coordinate is in the block's range on its axis. -/
theorem mem_blk3 (t : Fin cfg0.N) (i : S2048x300.Idx) :
    i ∈ ((cfg0.win 3).blk t).view.set ↔ ∀ a : Fin 2, win0_3.index t a * S32x300.size a ≤ (i a).val ∧ (i a).val < win0_3.index t a * S32x300.size a + S32x300.size a := by
  show i ∈ ((View.whole main_v9_0).slice (win0_3.rect t)).set ↔ _
  rw [View.set_slice_whole, Rect.mem_set_unit]
  exact Iff.rfl
theorem mem_blk4 (t : Fin cfg0.N) (i : S2048x300.Idx) :
    i ∈ ((cfg0.win 4).blk t).view.set ↔ ∀ a : Fin 2, win0_4.index t a * S32x300.size a ≤ (i a).val ∧ (i a).val < win0_4.index t a * S32x300.size a + S32x300.size a := by
  show i ∈ ((View.whole main_v9_1).slice (win0_4.rect t)).set ↔ _
  rw [View.set_slice_whole, Rect.mem_set_unit]
  exact Iff.rfl

/-- The 64 blocks fill each result: row r is in the block of point r / 32. -/
theorem cover3 (i : S2048x300.Idx) : ∃ t : Fin cfg0.N, (cfg0.win 3).flush t = true ∧ i ∈ ((cfg0.win 3).blk t).view.set := by
  have hi0 : (i 0).val < 2048 := (i 0).isLt
  have hi1 : (i 1).val < 300 := (i 1).isLt
  have hN : grid0.N = 64 := N_0
  have hlt : (i 0).val / 32 < cfg0.N := by show (i 0).val / 32 < grid0.N; rw [hN]; omega
  obtain ⟨-, -, -, -, -, -, -, -, e30, e31, -⟩ := idx_facts ⟨(i 0).val / 32, hlt⟩
  refine ⟨⟨(i 0).val / 32, hlt⟩, flush0_3 _, ?_⟩
  rw [mem_blk3]
  intro a
  match a with
  | ⟨0, _⟩ =>
    show win0_3.index ⟨(i 0).val / 32, hlt⟩ (0 : Fin 2) * 32 ≤ (i 0).val ∧ (i 0).val < win0_3.index ⟨(i 0).val / 32, hlt⟩ (0 : Fin 2) * 32 + 32
    rw [e30]; show (i 0).val / 32 * 32 ≤ (i 0).val ∧ (i 0).val < (i 0).val / 32 * 32 + 32; omega
  | ⟨1, _⟩ =>
    show win0_3.index ⟨(i 0).val / 32, hlt⟩ (1 : Fin 2) * 300 ≤ (i 1).val ∧ (i 1).val < win0_3.index ⟨(i 0).val / 32, hlt⟩ (1 : Fin 2) * 300 + 300
    rw [e31]; omega
theorem cover4 (i : S2048x300.Idx) : ∃ t : Fin cfg0.N, (cfg0.win 4).flush t = true ∧ i ∈ ((cfg0.win 4).blk t).view.set := by
  have hi0 : (i 0).val < 2048 := (i 0).isLt
  have hi1 : (i 1).val < 300 := (i 1).isLt
  have hN : grid0.N = 64 := N_0
  have hlt : (i 0).val / 32 < cfg0.N := by show (i 0).val / 32 < grid0.N; rw [hN]; omega
  obtain ⟨-, -, -, -, -, -, -, -, -, -, e40, e41⟩ := idx_facts ⟨(i 0).val / 32, hlt⟩
  refine ⟨⟨(i 0).val / 32, hlt⟩, flush0_4 _, ?_⟩
  rw [mem_blk4]
  intro a
  match a with
  | ⟨0, _⟩ =>
    show win0_4.index ⟨(i 0).val / 32, hlt⟩ (0 : Fin 2) * 32 ≤ (i 0).val ∧ (i 0).val < win0_4.index ⟨(i 0).val / 32, hlt⟩ (0 : Fin 2) * 32 + 32
    rw [e40]; show (i 0).val / 32 * 32 ≤ (i 0).val ∧ (i 0).val < (i 0).val / 32 * 32 + 32; omega
  | ⟨1, _⟩ =>
    show win0_4.index ⟨(i 0).val / 32, hlt⟩ (1 : Fin 2) * 300 ≤ (i 1).val ∧ (i 1).val < win0_4.index ⟨(i 0).val / 32, hlt⟩ (1 : Fin 2) * 300 + 300
    rw [e41]; omega

/-- THE FIRST RESULT ARRAY after the run: the rows' weighted means of the arrays the region found. -/
theorem final3 (c : Dev nD) : (dats m 0 c).arrAt 3 cfg0.N = senA m c :=
  (dats m 0 c).arrAt_eq_of_cover 3 (senA m c) (fun t _ => flushed3_eq m c t) cover3
/-- THE SECOND RESULT ARRAY after the run: the rows' plain means of the gathered embeddings. -/
theorem final4 (c : Dev nD) : (dats m 0 c).arrAt 4 cfg0.N = meanA m c :=
  (dats m 0 c).arrAt_eq_of_cover 4 (meanA m c) (fun t _ => flushed4_eq m c t) cover4

end Cert.KernelIdeal.Arr

end
-- ==== Proof.RefSpec.lean ====
/-
  The first half of the reference is the specification. On the gathered token embeddings `emb` it computes, for every
  batch row, token and filter, the product over the 300 features plus the bias, rectified (`score_eq`); the maximum of
  those over the nine filters from −∞ (`weight_eq`); the sum over the 128 tokens of the embeddings times those weights,
  from 0, divided by 128 (`sen_eq`); and the plain sum over the tokens, from 0, divided by 128 (`mean_eq`). The
  reference's 0 + Σ is the Σ of the specification, the f32 word 0 being the real 0; the other two words stay as printed.
-/
import proofs.«120177_j61581241090537_2_alg».proof.Proof.RefReadP
import proofs.«120177_j61581241090537_2_alg».proof.Proof.Spec
import Idealize.ShloMosaic.PureOps.Ideal.Laws

noncomputable section

namespace Cert.ReferenceIdeal.RefSpec

open Cert.ReferenceIdeal Cert.ReferenceIdeal.Gen Cert.ReferenceIdeal.ReadP Idealize.ShloMosaic Idealize.ShloMosaic.ValueIdx Idealize.SL.Sem

variable (x0 : (⟨S128x2048, .i32⟩ : BufTy).Contents (Elt Ideal)) (x1 : (⟨S50000x300, .f32⟩ : BufTy).Contents (Elt Ideal))
  (x2 : (⟨S9x300, .f32⟩ : BufTy).Contents (Elt Ideal)) (x3 : (⟨S9, .f32⟩ : BufTy).Contents (Elt Ideal))

/-- The rectified scores. -/
theorem score_eq (b : Fin 2048) (s : Fin 128) (f : Fin 9) :
    val_main_v12 (F := Ideal) x0 x1 x2 x3 (ix3 b s f) = Cert.Spec.score (val_main_v7 (F := Ideal) x0 x1) x2 x3 b s f := by
  rw [val_main_v12_apply, val_main_v11_apply, val_main_v8_apply, val_main_v10_apply, val_main_v9_apply,
    val_main_call0_v0_apply, val_main_call0_cst_apply]
  unfold Cert.Spec.score
  have hl : ∀ k : Fin 300, lidx_main_v8 (ix3 b s f) k = ix3 b s k := fun k => funext fun a => Fin.ext (by
    match a with | ⟨0, _⟩ => rfl | ⟨1, _⟩ => rfl | ⟨2, _⟩ => rfl)
  have hr : ∀ k : Fin 300, ridx_main_v8 (ix3 b s f) k = ix2 f k := fun k => funext fun a => Fin.ext (by
    match a with | ⟨0, _⟩ => rfl | ⟨1, _⟩ => rfl)
  have hb : idx_main_v9 (idx_main_v10 (ix3 b s f)) = ix1 f := funext fun a => Fin.ext (by
    match a with | ⟨0, _⟩ => rfl)
  simp only [hl, hr, hb]
  rfl

theorem hred : S2048x128x9.Reduces [2] S2048x128 := by decide

theorem lift_filter (b : Fin 2048) (s : Fin 128) (f : Fin 9) : hred.lift (ix2 b s) f = ix3 b s f :=
  funext fun a => Fin.ext (match a with
    | ⟨0, _⟩ => rfl
    | ⟨1, _⟩ => rfl
    | ⟨2, _⟩ => rfl)

/-- The token weights: the host's reduction with a `max` body over the filter axis is the fold of `max` from its
    initial value over the nine filters. -/
theorem weight_eq (b : Fin 2048) (s : Fin 128) :
    val_main_v13 (F := Ideal) x0 x1 x2 x3 (ix2 b s) = Cert.Spec.weight (val_main_v7 (F := Ideal) x0 x1) x2 x3 b s := by
  unfold val_main_v13 Cert.Spec.weight
  refine (Host.reduce_eq_fold_single (FloatOps.maximumf (F := Ideal) (φ := .f32)) (val_main_v12 (F := Ideal) x0 x1 x2 x3)
    (val_main_cst (F := Ideal)) reducesTo_S2048x128x9_S2048x128_d2 hred h_S_ (ix2 b s)).trans ?_
  show (Finset.univ : Finset (Fin 9)).fold max (Ideal.ofBits .f32 0xFF800000#32)
      (fun f : Fin 9 => val_main_v12 (F := Ideal) x0 x1 x2 x3 (hred.lift (ix2 b s) f))
    = (Finset.univ : Finset (Fin 9)).fold max (Ideal.ofBits .f32 0xFF800000#32)
      (fun f : Fin 9 => Cert.Spec.score (val_main_v7 (F := Ideal) x0 x1) x2 x3 b s f)
  refine congrArg (fun g : Fin 9 → EReal => (Finset.univ : Finset (Fin 9)).fold max (Ideal.ofBits .f32 0xFF800000#32) g)
    (funext fun f : Fin 9 => ?_)
  exact (congrArg (val_main_v12 (F := Ideal) x0 x1 x2 x3) (lift_filter b s f)).trans (score_eq x0 x1 x2 x3 b s f)

/-- The rows' weighted means. -/
theorem sen_eq : val_main_v19 (F := Ideal) x0 x1 x2 x3 = Cert.Spec.sen (val_main_v7 (F := Ideal) x0 x1) x2 x3 := by
  funext i
  obtain ⟨b, e, rfl⟩ : ∃ (b : Fin 2048) (e : Fin 300), i = ix2 b e := ⟨i 0, i 1, eq_ix2 i⟩
  rw [val_main_v19_apply, val_main_v17_apply, val_main_v18_apply, val_main_cst_2_apply, val_main_cst_1_apply]
  show Ideal.div (Ideal.ofBits .f32 0x00000000#32 + ∑ k : Fin 128, val_main_v16 (F := Ideal) x0 x1 x2 x3 (idx_main_v17 (ix2 b e) k))
      (Ideal.ofBits .f32 0x43000000#32)
    = Ideal.div (∑ s : Fin 128, val_main_v7 (F := Ideal) x0 x1 (ix3 b s e) * Cert.Spec.weight (val_main_v7 (F := Ideal) x0 x1) x2 x3 b s)
      (Ideal.ofBits .f32 0x43000000#32)
  rw [Ideal.ofBits_zero_f32, zero_add]
  refine congrArg (fun z => Ideal.div z (Ideal.ofBits .f32 0x43000000#32)) (Finset.sum_congr rfl fun s _ => ?_)
  rw [val_main_v16_apply, val_main_v15_apply, val_main_v14_apply]
  have h1 : idx_main_v17 (ix2 b e) s = ix3 b s e := funext fun a => Fin.ext (by
    match a with | ⟨0, _⟩ => rfl | ⟨1, _⟩ => rfl | ⟨2, _⟩ => rfl)
  have h2 : idx_main_v14 (idx_main_v15 (idx_main_v17 (ix2 b e) s)) = ix2 b s := funext fun a => Fin.ext (by
    match a with | ⟨0, _⟩ => rfl | ⟨1, _⟩ => rfl)
  rw [h2, weight_eq, h1]
  rfl

/-- The rows' plain means. -/
theorem mean_eq : val_main_v39 (F := Ideal) x0 x1 = Cert.Spec.mean (val_main_v7 (F := Ideal) x0 x1) := by
  funext i
  obtain ⟨b, e, rfl⟩ : ∃ (b : Fin 2048) (e : Fin 300), i = ix2 b e := ⟨i 0, i 1, eq_ix2 i⟩
  rw [val_main_v39_apply, val_main_v37_apply, val_main_v38_apply, val_main_cst_7_apply, val_main_cst_6_apply]
  show Ideal.div (Ideal.ofBits .f32 0x00000000#32 + ∑ k : Fin 128, val_main_v7 (F := Ideal) x0 x1 (idx_main_v37 (ix2 b e) k))
      (Ideal.ofBits .f32 0x43000000#32)
    = Ideal.div (∑ s : Fin 128, val_main_v7 (F := Ideal) x0 x1 (ix3 b s e)) (Ideal.ofBits .f32 0x43000000#32)
  rw [Ideal.ofBits_zero_f32, zero_add]
  refine congrArg (fun z => Ideal.div z (Ideal.ofBits .f32 0x43000000#32)) (Finset.sum_congr rfl fun s _ => ?_)
  exact congrArg (val_main_v7 (F := Ideal) x0 x1) (funext fun a => Fin.ext (by
    match a with | ⟨0, _⟩ => rfl | ⟨1, _⟩ => rfl | ⟨2, _⟩ => rfl))

end Cert.ReferenceIdeal.RefSpec

end
-- ==== Proof.KITail.lean ====
/-
  The second half of the kernel's program is the second half of the reference. When the region is entered the gathered
  embeddings are the reference's own gathered array (the same eleven host operations on the same arguments), the filter
  matrix is the argument, and the bias, reshaped to [1,1,9], read at (0,0,f) is the argument at f; so by the 64 points'
  write-backs the kernel's two result arrays are the reference's weighted means and plain means of the arguments
  (`res3`, `res4`). The 97 host operations after the region are the reference's later operations on other buffers: at
  any contents holding those two arrays and the arguments they compute the reference's two results (`tail_v79`,
  `tail_v70`: the fold read off operation by operation — the one three-operand join with each operand at its own buffer —;
  none of the softmaxes, the entropy or the normalisations is opened). Hence the kernel's run with both results named (`run`).
-/
import proofs.«120177_j61581241090537_2_alg».proof.Proof.KIArr
import proofs.«120177_j61581241090537_2_alg».proof.Proof.RefSpec

set_option maxRecDepth 16384

noncomputable section

namespace Cert.KernelIdeal.Tail

open Cert.KernelIdeal Cert.KernelIdeal.Gen Cert.KernelIdeal.Fr Cert.KernelIdeal.Pay Cert.KernelIdeal.Arr
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.ReferenceIdeal.ReadP (val_main_v7 val_main_v19 val_main_v39 val_main_v92 val_main_v83)

variable (m : (ℓ : Loc nD τ sig) → Buf (Elt Ideal) ℓ)

/-! ## The arrays the region finds -/

/-- The gathered embeddings are the reference's gathered array of the same arguments. -/
theorem entry_emb (c : Dev nD) :
    (V m c main_v7 : (⟨3, ![2048, 128, 300]⟩ : Shape).Idx → EReal) = val_main_v7 (F := Ideal) (m ((c : Thread nD τ).loc main_arg0)) (m ((c : Thread nD τ).loc main_arg1)) := by
  show StableHlo.after hostOps0 (fun b => m (c, b)) (Proc.devRef .tc main_v7) = _
  after_results
  rfl

/-- The reshaped bias read at (0,0,f) is the bias at f. -/
theorem entry_bias (c : Dev nD) : cbOf (V m c main_v8) = (m ((c : Thread nD τ).loc main_arg3)) := by
  have e : (V m c main_v8 : (⟨3, ![1, 1, 9]⟩ : Shape).Idx → EReal)
      = shapeCast S1x1x9 (m ((c : Thread nD τ).loc main_arg3) : (⟨1, ![9]⟩ : Shape).Idx → EReal) shapeCasts_S9_S1x1x9 := by
    show StableHlo.after hostOps0 (fun b => m (c, b)) (Proc.devRef .tc main_v8) = _
    after_results
    rfl
  funext j
  show V m c main_v8 (ix3 (0 : Fin 1) (0 : Fin 1) (j 0)) = _
  rw [e]
  refine (shapeCast_apply _ shapeCasts_S9_S1x1x9 (ix3 (0 : Fin 1) (0 : Fin 1) (j 0)) j ?_)
  rw [Shape.rowMajor_val_one, Shape.rowMajor_val_three]
  show (j 0).val = (0 * 1 + 0) * 9 + (j 0).val
  omega

/-- THE FIRST RESULT ARRAY after the region is the reference's weighted means of the arguments. -/
theorem res3 (c : Dev nD) : (dats m 0 c).arrAt 3 cfg0.N = val_main_v19 (F := Ideal) (m ((c : Thread nD τ).loc main_arg0)) (m ((c : Thread nD τ).loc main_arg1)) (m ((c : Thread nD τ).loc main_arg2)) (m ((c : Thread nD τ).loc main_arg3)) := by
  rw [final3]
  unfold senA
  rw [entry_bias, entry_emb, V_arg m c main_arg2 (by decide)]
  exact (Cert.ReferenceIdeal.RefSpec.sen_eq _ _ _ _).symm

/-- THE SECOND RESULT ARRAY after the region is the reference's plain means of the arguments. -/
theorem res4 (c : Dev nD) : (dats m 0 c).arrAt 4 cfg0.N = val_main_v39 (F := Ideal) (m ((c : Thread nD τ).loc main_arg0)) (m ((c : Thread nD τ).loc main_arg1)) := by
  rw [final4]
  unfold meanA
  rw [entry_emb]
  exact (Cert.ReferenceIdeal.RefSpec.mean_eq _ _).symm

/-! ## The operations after the region -/

/-- The three arrays joined along the second axis. -/
def joined (A : S2048x4.Idx → EReal) (B : S2048x1.Idx → EReal) (C : S2048x5.Idx → EReal) : S2048x10.Idx → EReal :=
  concatenate S2048x10 1 [⟨S2048x4, A⟩, ⟨S2048x1, B⟩, ⟨S2048x5, C⟩] concatenates_S2048x4_S2048x1_S2048x5_S2048x10_d1

/-- The one operation with three operands — the join of two column slices and the entropy column —, read at its own result
    buffer, with each operand at its own buffer, so that the reading of the fold goes on inside the three. -/
theorem concat_result (hxs hy) (G : Valuation τ sig (Elt Ideal)) :
    (nary (τ := τ) ![main_v68, main_v63, main_v69] main_v70
        (fun u => concatenate S2048x10 1 [⟨S2048x4, u 0⟩, ⟨S2048x1, u 1⟩, ⟨S2048x5, u 2⟩] concatenates_S2048x4_S2048x1_S2048x5_S2048x10_d1) hxs hy).result G
      (no_index (Proc.devRef .tc main_v70))
    = joined (G (Proc.devRef .tc main_v68)) (G (Proc.devRef .tc main_v63)) (G (Proc.devRef .tc main_v69)) :=
  nary_result _ _ _ hxs hy G

set_option maxRecDepth 65536 in
set_option maxHeartbeats 0 in
/-- At any contents holding the reference's weighted means and plain means in the kernel's two result arrays and the
    arguments in theirs, the 97 later operations leave the reference's first result in the first result buffer. -/
theorem tail_v79 (W : Valuation τ sig (Elt Ideal))
    (a0 : (⟨Cert.ReferenceIdeal.S128x2048, .i32⟩ : BufTy).Contents (Elt Ideal)) (a1 : (⟨Cert.ReferenceIdeal.S50000x300, .f32⟩ : BufTy).Contents (Elt Ideal))
    (a2 : (⟨Cert.ReferenceIdeal.S9x300, .f32⟩ : BufTy).Contents (Elt Ideal)) (a3 : (⟨Cert.ReferenceIdeal.S9, .f32⟩ : BufTy).Contents (Elt Ideal))
    (a4 : (⟨Cert.ReferenceIdeal.S300x10, .f32⟩ : BufTy).Contents (Elt Ideal)) (a5 : (⟨Cert.ReferenceIdeal.S10, .f32⟩ : BufTy).Contents (Elt Ideal))
    (hs : W (Proc.devRef .tc main_v9_0) = val_main_v19 (F := Ideal) a0 a1 a2 a3)
    (hm : W (Proc.devRef .tc main_v9_1) = val_main_v39 (F := Ideal) a0 a1)
    (h2 : W (Proc.devRef .tc main_arg2) = a2) (h3 : W (Proc.devRef .tc main_arg3) = a3)
    (h4 : W (Proc.devRef .tc main_arg4) = a4) (h5 : W (Proc.devRef .tc main_arg5) = a5) :
    StableHlo.after (tailOps (F := Ideal)).flatten W (Proc.devRef .tc main_v79) = val_main_v92 (F := Ideal) a0 a1 a2 a3 a4 a5 := by
  simp only [tailOps, hostOps1, hostOps1_1, hostOps1_2, hostOps1_3, hostOps1_4, hostOps1_5, hostOps1_6, hostOps1_7, hostOps1_8, List.flatten_cons, List.flatten_nil, List.append_nil, List.cons_append, List.nil_append]
  simp (disch := decide) only [concat_result, after_cons, after_nil, nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rw [hs, hm, h2, h3, h4, h5]
  rfl

set_option maxRecDepth 65536 in
set_option maxHeartbeats 0 in
/-- And the reference's second result in the second result buffer. -/
theorem tail_v70 (W : Valuation τ sig (Elt Ideal))
    (a0 : (⟨Cert.ReferenceIdeal.S128x2048, .i32⟩ : BufTy).Contents (Elt Ideal)) (a1 : (⟨Cert.ReferenceIdeal.S50000x300, .f32⟩ : BufTy).Contents (Elt Ideal))
    (a2 : (⟨Cert.ReferenceIdeal.S9x300, .f32⟩ : BufTy).Contents (Elt Ideal)) (a3 : (⟨Cert.ReferenceIdeal.S9, .f32⟩ : BufTy).Contents (Elt Ideal))
    (a4 : (⟨Cert.ReferenceIdeal.S300x10, .f32⟩ : BufTy).Contents (Elt Ideal)) (a5 : (⟨Cert.ReferenceIdeal.S10, .f32⟩ : BufTy).Contents (Elt Ideal))
    (hs : W (Proc.devRef .tc main_v9_0) = val_main_v19 (F := Ideal) a0 a1 a2 a3)
    (hm : W (Proc.devRef .tc main_v9_1) = val_main_v39 (F := Ideal) a0 a1)
    (h2 : W (Proc.devRef .tc main_arg2) = a2) (h3 : W (Proc.devRef .tc main_arg3) = a3)
    (h4 : W (Proc.devRef .tc main_arg4) = a4) (h5 : W (Proc.devRef .tc main_arg5) = a5) :
    StableHlo.after (tailOps (F := Ideal)).flatten W (Proc.devRef .tc main_v70) = val_main_v83 (F := Ideal) a0 a1 a2 a3 a4 a5 := by
  simp only [tailOps, hostOps1, hostOps1_1, hostOps1_2, hostOps1_3, hostOps1_4, hostOps1_5, hostOps1_6, hostOps1_7, hostOps1_8, List.flatten_cons, List.flatten_nil, List.append_nil, List.cons_append, List.nil_append]
  simp (disch := decide) only [concat_result, after_cons, after_nil, nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rw [hs, hm, h2, h3, h4, h5]
  rfl

/-! ## The kernel's run, both results named -/

/-- The contents the later operations start from: the pipeline's arrays as the region left them, the rest as it found it. -/
abbrev W0 (c : Dev nD) : Valuation τ sig (Elt Ideal) :=
  Pipeline.withArrays spec0 c (V0 m c) fun w => (dats m 0 c).arrAt w (cfgs 0).N

theorem W0_arr (c : Dev nD) (w : Fin 5) : W0 m c (Proc.devRef .tc (Pipeline.arrRef spec0 w)) = (dats m 0 c).arrAt w (cfgs 0).N :=
  Pipeline.withArrays_arr spec0 launch0.win.arr_inj c _ _ w

theorem W0_rest (c : Dev nD) (b : Ref sig .tc) (hb : b ∈ keptArgs) (hne : ∀ w, Pipeline.arrRef spec0 w ≠ b) :
    W0 m c (Proc.devRef .tc b) = m ((c : Thread nD τ).loc b) :=
  (Pipeline.withArrays_of_ne _ c (V0 m c) _ b hne).trans (V_arg m c b hb)

/-- After the whole program the first result buffer holds the reference's first result of the arguments, -/
theorem out_v79 (c : Dev nD) : Pipeline.afterTail₀ cfgs (dats m) 0 (V0 m) tailOps c main_v79
    = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  exact tail_v79 (W0 m c) _ _ _ _ _ _ ((W0_arr m c 3).trans (res3 m c)) ((W0_arr m c 4).trans (res4 m c))
    ((W0_arr m c 1).trans (((dats m 0 c).arrAt_in 1 rfl _).trans ((A_eq m c 1).trans (V_arg m c main_arg2 (by decide)))))
    (W0_rest m c main_arg3 (by decide) (by decide)) (W0_rest m c main_arg4 (by decide) (by decide)) (W0_rest m c main_arg5 (by decide) (by decide))

/-- and the second result buffer its second result. -/
theorem out_v70 (c : Dev nD) : Pipeline.afterTail₀ cfgs (dats m) 0 (V0 m) tailOps c main_v70
    = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  exact tail_v70 (W0 m c) _ _ _ _ _ _ ((W0_arr m c 3).trans (res3 m c)) ((W0_arr m c 4).trans (res4 m c))
    ((W0_arr m c 1).trans (((dats m 0 c).arrAt_in 1 rfl _).trans ((A_eq m c 1).trans (V_arg m c main_arg2 (by decide)))))
    (W0_rest m c main_arg3 (by decide) (by decide)) (W0_rest m c main_arg4 (by decide) (by decide)) (W0_rest m c main_arg5 (by decide) (by decide))

/-- THE KERNEL'S RUN: it terminates with its two results at the reference's two results of the launch arguments, the
    arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v79) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v70) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v79 (Pipeline.mem_restRefs_of main_v79 (by decide) (by decide))).trans (out_v79 m c),
      ((h c).2 main_v70 (Pipeline.mem_restRefs_of main_v70 (by decide) (by decide))).trans (out_v70 m c),
      ((h c).2 main_arg0 (Pipeline.mem_restRefs_of main_arg0 (by decide) (by decide))).trans ((W_rest m (dats m) c main_arg0 (by decide) (by decide)).trans (V_arg m c main_arg0 (by decide))),
      ((h c).2 main_arg1 (Pipeline.mem_restRefs_of main_arg1 (by decide) (by decide))).trans ((W_rest m (dats m) c main_arg1 (by decide) (by decide)).trans (V_arg m c main_arg1 (by decide))),
      ((h c).1 1).trans (((dats m 0 c).arrAt_in 1 rfl _).trans ((A_eq m c 1).trans (V_arg m c main_arg2 (by decide)))),
      ((h c).2 main_arg3 (Pipeline.mem_restRefs_of main_arg3 (by decide) (by decide))).trans ((W_rest m (dats m) c main_arg3 (by decide) (by decide)).trans (V_arg m c main_arg3 (by decide))),
      ((h c).2 main_arg4 (Pipeline.mem_restRefs_of main_arg4 (by decide) (by decide))).trans ((W_rest m (dats m) c main_arg4 (by decide) (by decide)).trans (V_arg m c main_arg4 (by decide))),
      ((h c).2 main_arg5 (Pipeline.mem_restRefs_of main_arg5 (by decide) (by decide))).trans ((W_rest m (dats m) c main_arg5 (by decide) (by decide)).trans (V_arg m c main_arg5 (by decide)))⟩)
    (run_main m ρ)

end Cert.KernelIdeal.Tail

end
-- ==== Proof.RefOut.lean ====
/-
  The reference's run, with its two results named by the stage functions. The run of a straight-line host program leaves
  every buffer at the fold of the program's 129 operations over the launch contents. Read at a result buffer, operation by
  operation — each operation's result at its own buffer is its function of its operands' contents, at any other buffer
  what was there —, that fold is the last stage's value of the six arguments. The one operation with three operands, the
  join of two column slices and the entropy column along the second axis, is read with each operand at its own buffer
  (`concat_result`), the join named as a function of the three arrays (`joined`) so that the reading goes on inside them.
-/
import proofs.«120177_j61581241090537_2_alg».proof.Proof.RefReadP

noncomputable section

namespace Cert.ReferenceIdeal.RefOut

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The three arrays joined along the second axis. -/
def joined (A : S2048x4.Idx → Elt F .f32) (B : S2048x1.Idx → Elt F .f32) (C : S2048x5.Idx → Elt F .f32) : S2048x10.Idx → Elt F .f32 :=
  concatenate S2048x10 1 [⟨S2048x4, A⟩, ⟨S2048x1, B⟩, ⟨S2048x5, C⟩] concatenates_S2048x4_S2048x1_S2048x5_S2048x10_d1

/-- The join, read at its own result buffer, with each operand at its own buffer. -/
theorem concat_result (hxs hy) (G : Valuation τ sig (Elt F)) :
    (nary (τ := τ) ![main_v81, main_v76, main_v82] main_v83
        (fun u => concatenate S2048x10 1 [⟨S2048x4, u 0⟩, ⟨S2048x1, u 1⟩, ⟨S2048x5, u 2⟩] concatenates_S2048x4_S2048x1_S2048x5_S2048x10_d1) hxs hy).result G
      (no_index (Proc.devRef .tc main_v83))
    = joined (G (Proc.devRef .tc main_v81)) (G (Proc.devRef .tc main_v76)) (G (Proc.devRef .tc main_v82)) :=
  nary_result _ _ _ hxs hy G

set_option maxRecDepth 65536 in
set_option maxHeartbeats 0 in
/-- The fold read at the first result's buffer is the last stage. -/
theorem out0 (m : (ℓ : Loc nD τ sig) → Buf (Elt F) ℓ) (c : Dev nD) :
    res_main_v92 m c = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v92 ops
  simp (disch := decide) only [concat_result, after_cons, after_nil, nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxRecDepth 65536 in
set_option maxHeartbeats 0 in
/-- The fold read at the second result's buffer is the join's stage. -/
theorem out1 (m : (ℓ : Loc nD τ sig) → Buf (Elt F) ℓ) (c : Dev nD) :
    res_main_v83 m c = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v83 ops
  simp (disch := decide) only [concat_result, after_cons, after_nil, nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- THE REFERENCE'S RUN: it terminates with its two results at the stages' values of the launch arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out0 m c), (h c).2.1.trans (out1 m c), (h c).2.2⟩)
    (Cert.ReferenceIdeal.ValueP.run (F := F) m ρ)

end Cert.ReferenceIdeal.RefOut

end
-- ==== Proof.lean ====
/- The proof of `Cert.Claim`: a text-classification head — token embeddings gathered from a 50000-row table, nine seed
   filters scored against every token, each token weighted by its largest rectified score, the sentence taken as the
   weighted mean of its 128 tokens, then two softmaxes, a normalised entropy with a threshold, and two normalisations —
   computed by a kernel that reduces 32 sentences at a time, against the same computation written with whole arrays.

   The kernel's program gathers the embeddings [2048,128,300] with the reference's own host operations, runs ONE region on
   a grid of 64 points, and goes on with 97 host operations. At point t the body holds rows 32·t … 32·t+31: it multiplies
   the flattened block [4096,300] by the transposed filters [9,300] into the zero accumulator, adds the bias, rectifies,
   takes each token's maximum over the filters from −∞, and stores the rows' weighted means and plain means over the
   tokens (sums divided by 128). On the extended reals this is, row by row, what the reference computes over all 2048
   rows at once with a product contracted over the features, a maximum over the filters and two sums over the tokens:
   narrowing to bf16 is the identity, the product into the zero accumulator is the sum over the contracted axis, the
   order and the tiling of a sum do not matter, and a row's values depend on that row of the embeddings alone. The 64
   blocks fill the two result arrays, so after the region they hold the reference's two intermediate arrays; the 97 later
   operations are the reference's later operations on other buffers, read off operation by operation. Nothing needs the
   inputs' finiteness: no sum is re-associated across a product and nothing is cancelled.

   The frames: each program runs to its end, faults nowhere and leaves its six arguments as launched — for the kernel's
   two programs by the library's run of a region followed by host operations (the body obligation is the body's run on
   whole staging buffers at a generic point), for the reference by the run of a straight-line host program.
   No operation is rewritten between the kernel as printed and its reading on the extended reals, so that conjunct is
   trivial. -/
import proofs.«120177_j61581241090537_2_alg».proof.Defs
import proofs.«120177_j61581241090537_2_alg».proof.Proof.KFrame
import proofs.«120177_j61581241090537_2_alg».proof.Proof.KITail
import proofs.«120177_j61581241090537_2_alg».proof.Proof.RefOut
import proofs.«120177_j61581241090537_2_alg».proof.Proof.Gen.Kernel
import proofs.«120177_j61581241090537_2_alg».proof.Proof.Gen.KernelIdeal
import proofs.«120177_j61581241090537_2_alg».proof.Proof.Gen.ReferenceIdeal
import proofs.«120177_j61581241090537_2_alg».proof.Proof.Gen.Pre_finite_inputs
import Idealize.ShloMosaic.Adequacy
import Idealize.ShloMosaic.Init

noncomputable section

namespace Cert.Proof

open Idealize.ShloMosaic Idealize.SL.Sem

/-- The kernel as printed runs, faults nowhere and keeps its arguments. -/
theorem frame_k : Cert.frame_Kernel := fun m ρ _ => Cert.Kernel.Fr.frame m ρ

/-- The same program read on the extended reals. -/
theorem frame_ki : Cert.frame_KernelIdeal := fun m ρ _ => Cert.KernelIdeal.Fr.frame m ρ

/-- The reference: its run with the results dropped. -/
theorem frame_ri : Cert.frame_ReferenceIdeal := fun m ρ _ =>
  (θ_run Cert.ReferenceIdeal.defs _ _).mono (fun _ h c => (h c).2.2) (Cert.ReferenceIdeal.RefOut.run (F := Ideal) m ρ)

/-- The idealization rewrote no operation. -/
theorem preserves : Cert.preserves_Kernel_KernelIdeal := trivial

/-- On the extended reals, from memories agreeing on the six arguments, both programs end with the reference's two
    results of those arguments: the kernel by its run through the region and the 97 later operations, the reference by
    its own run, rewritten along the arguments' agreement. -/
theorem algebraic : Cert.algebraic_KernelIdeal_ReferenceIdeal := by
  intro m ρ m' ρ' _ hagree
  refine ⟨_, _, Cert.KernelIdeal.Tail.run m ρ, ?_⟩
  refine (θ_run Cert.ReferenceIdeal.defs _ _).mono (fun _ h c => ⟨(h c).1.trans ?_, (h c).2.1.trans ?_, (h c).2.2⟩)
    (Cert.ReferenceIdeal.RefOut.run (F := Ideal) m' ρ')
  · rw [(hagree c).1, (hagree c).2.1, (hagree c).2.2.1, (hagree c).2.2.2.1, (hagree c).2.2.2.2.1, (hagree c).2.2.2.2.2]
  · rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
